-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x12 : Shape := ⟨2, ![524288, 12]⟩
abbrev S16x128 : Shape := ⟨2, ![16, 128]⟩
abbrev S128x128 : Shape := ⟨2, ![128, 128]⟩
abbrev S_ : Shape := ⟨0, ![]⟩
abbrev S16x27 : Shape := ⟨2, ![16, 27]⟩
abbrev S12x1 : Shape := ⟨2, ![12, 1]⟩
abbrev S1x1 : Shape := ⟨2, ![1, 1]⟩
abbrev S3x1 : Shape := ⟨2, ![3, 1]⟩

class Facts : Prop where
  bcast_S_S524288x12 : S_.BroadcastsInDim S524288x12 (![] : Fin 0 → Fin S524288x12.rank)
  reducesTo_S524288x12_S_d0_1 : S524288x12.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  slices_S16x128_S16x27_0_100 : S16x128.Slices ![0, 100] S16x27
  bcast_S_S16x27 : S_.BroadcastsInDim S16x27 (![] : Fin 0 → Fin S16x27.rank)
  reducesTo_S16x27_S_d0_1 : S16x27.ReducesTo [0, 1] S_
  slices_S16x128_S12x1_0_127 : S16x128.Slices ![0, 127] S12x1
  bcast_S_S12x1 : S_.BroadcastsInDim S12x1 (![] : Fin 0 → Fin S12x1.rank)
  reducesTo_S12x1_S_d0_1 : S12x1.ReducesTo [0, 1] S_
  slices_S16x128_S1x1_12_127 : S16x128.Slices ![12, 127] S1x1
  bcast_S_S1x1 : S_.BroadcastsInDim S1x1 (![] : Fin 0 → Fin S1x1.rank)
  reducesTo_S1x1_S_d0_1 : S1x1.ReducesTo [0, 1] S_
  slices_S16x128_S3x1_13_127 : S16x128.Slices ![13, 127] S3x1
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg1 : FVec F S16x128 .f32) (main_v13 : IVec S_ 1) (main_v16 : IVec S16x27 1) : IVec S_ 1 :=
  let main_c_5 : IVec S_ 1 := constantI S_ 1 1#1
  let main_v17 : IVec S_ 1 := (fun x v => Host.reduce IntOp.andi x v reducesTo_S16x27_S_d0_1 h_S_) main_v16 main_c_5
  let main_v18 : IVec S_ 1 := andi main_v13 main_v17
  let main_v19 : FVec F S12x1 .f32 := (extractStridedSlice S12x1 ![0, 127] · slices_S16x128_S12x1_0_127) main_arg1
  let main_cst_6 : FVec F S_ .f32 := constant S_ .f32 0x00000000#32
  let main_v20 : FVec F S12x1 .f32 := broadcastInDim S12x1 ![] bcast_S_S12x1 main_cst_6
  let main_v21 : IVec S12x1 1 := cmpf .oeq main_v19 main_v20
  let main_c_7 : IVec S_ 1 := constantI S_ 1 1#1
  let main_v22 : IVec S_ 1 := (fun x v => Host.reduce IntOp.andi x v reducesTo_S12x1_S_d0_1 h_S_) main_v21 main_c_7
  let main_v23 : IVec S_ 1 := andi main_v18 main_v22
  let main_v24 : FVec F S1x1 .f32 := (extractStridedSlice S1x1 ![12, 127] · slices_S16x128_S1x1_12_127) main_arg1
  let main_cst_8 : FVec F S_ .f32 := constant S_ .f32 0x3F800000#32
  let main_v25 : FVec F S1x1 .f32 := broadcastInDim S1x1 ![] bcast_S_S1x1 main_cst_8
  let main_v26 : IVec S1x1 1 := cmpf .oeq main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S3x1 .f32 := (extractStridedSlice S3x1 ![13, 127] · slices_S16x128_S3x1_13_127) main_arg1
  let main_cst_10 : FVec F S_ .f32 := constant S_ .f32 0x00000000#32
  let main_v30 : FVec F S3x1 .f32 := broadcastInDim S3x1 ![] bcast_S_S3x1 main_cst_10
  let main_v31 : IVec S3x1 1 := cmpf .oeq main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  main_v33

def fn {F : FTy → Type} [FloatOps F] (main_arg0 : FVec F S524288x12 .f32) (main_arg1 : FVec F S16x128 .f32) (main_arg2 : FVec F S128x128 .f32) : IVec S_ 1 :=
  let main_v0 : FVec F S524288x12 .f32 := Host.absf main_arg0
  let main_cst : FVec F S_ .f32 := constant S_ .f32 0x7F800000#32
  let main_v1 : FVec F S524288x12 .f32 := broadcastInDim S524288x12 ![] bcast_S_S524288x12 main_cst
  let main_v2 : IVec S524288x12 1 := cmpf .olt main_v0 main_v1
  let main_c : IVec S_ 1 := constantI S_ 1 1#1
  let main_v3 : IVec S_ 1 := (fun x v => Host.reduce IntOp.andi x v reducesTo_S524288x12_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S16x27 .f32 := (extractStridedSlice S16x27 ![0, 100] · slices_S16x128_S16x27_0_100) main_arg1
  let main_cst_4 : FVec F S_ .f32 := constant S_ .f32 0x00000000#32
  let main_v15 : FVec F S16x27 .f32 := broadcastInDim S16x27 ![] bcast_S_S16x27 main_cst_4
  let main_v16 : IVec S16x27 1 := cmpf .oeq main_v14 main_v15
  fn_part1 (F := F) main_arg1 main_v13 main_v16
-- ==== Kernel.lean ====
abbrev S524288x12 : Shape := ⟨2, ![524288, 12]⟩
abbrev S16x128 : Shape := ⟨2, ![16, 128]⟩
abbrev S128x128 : Shape := ⟨2, ![128, 128]⟩
abbrev S12x524288 : Shape := ⟨2, ![12, 524288]⟩
abbrev S12x104 : Shape := ⟨2, ![12, 104]⟩
abbrev S104x12 : Shape := ⟨2, ![104, 12]⟩
abbrev S1x104 : Shape := ⟨2, ![1, 104]⟩
abbrev S104x1 : Shape := ⟨2, ![104, 1]⟩
abbrev S_ : Shape := ⟨0, ![]⟩
abbrev S1 : Shape := ⟨1, ![1]⟩
abbrev S2 : Shape := ⟨1, ![2]⟩
abbrev S8x104 : Shape := ⟨2, ![8, 104]⟩
abbrev S100x4 : Shape := ⟨2, ![100, 4]⟩
abbrev S4x100 : Shape := ⟨2, ![4, 100]⟩
abbrev S1x4 : Shape := ⟨2, ![1, 4]⟩
abbrev S4 : Shape := ⟨1, ![4]⟩
abbrev S4x524288 : Shape := ⟨2, ![4, 524288]⟩
abbrev S12x32768 : Shape := ⟨2, ![12, 32768]⟩
abbrev S4x32768 : Shape := ⟨2, ![4, 32768]⟩
abbrev S104x32768 : Shape := ⟨2, ![104, 32768]⟩
abbrev S8x32768 : Shape := ⟨2, ![8, 32768]⟩
abbrev S524288x4 : Shape := ⟨2, ![524288, 4]⟩

abbrev nBuf : Space → Nat
  | .hbm => 37
  | .vmem => 7
  | .smem => 0
  | _ => 0

abbrev bufTy : (tb : Table) → Fin (tcTables nBuf tb) → BufTy
  | .hbm, ⟨0, _⟩ => ⟨S524288x12, .f32⟩
  | .hbm, ⟨1, _⟩ => ⟨S16x128, .f32⟩
  | .hbm, ⟨2, _⟩ => ⟨S128x128, .f32⟩
  | .hbm, ⟨3, _⟩ => ⟨S12x524288, .f32⟩
  | .hbm, ⟨4, _⟩ => ⟨S12x104, .f32⟩
  | .hbm, ⟨5, _⟩ => ⟨S104x12, .f32⟩
  | .hbm, ⟨6, _⟩ => ⟨S104x12, .bf16⟩
  | .hbm, ⟨7, _⟩ => ⟨S1x104, .f32⟩
  | .hbm, ⟨8, _⟩ => ⟨S104x1, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S_, .f32⟩
  | .hbm, ⟨15, _⟩ => ⟨S104x1, .f32⟩
  | .hbm, ⟨16, _⟩ => ⟨S_, .f32⟩
  | .hbm, ⟨17, _⟩ => ⟨S8x104, .f32⟩
  | .hbm, ⟨18, _⟩ => ⟨S100x4, .f32⟩
  | .hbm, ⟨19, _⟩ => ⟨S4x100, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S8x104, .f32⟩
  | .hbm, ⟨26, _⟩ => ⟨S1x4, .f32⟩
  | .hbm, ⟨27, _⟩ => ⟨S4, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x104, .f32⟩
  | .hbm, ⟨34, _⟩ => ⟨S8x104, .bf16⟩
  | .hbm, ⟨35, _⟩ => ⟨S4x524288, .f32⟩
  | .hbm, ⟨36, _⟩ => ⟨S524288x4, .f32⟩
  | .local _ .vmem, ⟨0, _⟩ => ⟨S12x32768, .f32⟩
  | .local _ .vmem, ⟨1, _⟩ => ⟨S12x32768, .f32⟩
  | .local _ .vmem, ⟨2, _⟩ => ⟨S104x12, .bf16⟩
  | .local _ .vmem, ⟨3, _⟩ => ⟨S104x1, .f32⟩
  | .local _ .vmem, ⟨4, _⟩ => ⟨S8x104, .bf16⟩
  | .local _ .vmem, ⟨5, _⟩ => ⟨S4x32768, .f32⟩
  | .local _ .vmem, ⟨6, _⟩ => ⟨S4x32768, .f32⟩
  | _, _ => ⟨S524288x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S104x12 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S104x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x104 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S524288x12_S12x524288_1_0 : S524288x12.Transposes [1, 0] S12x524288
  slices_S16x128_S12x104_0_0 : S16x128.Slices ![0, 0] S12x104
  transposes_S12x104_S104x12_1_0 : S12x104.Transposes [1, 0] S104x12
  bitsLt_bf16_f32 : FTy.bits .bf16 < FTy.bits .f32
  slices_S16x128_S1x104_12_0 : S16x128.Slices ![12, 0] S1x104
  transposes_S1x104_S104x1_1_0 : S1x104.Transposes [1, 0] S104x1
  bcast_S_S1 : S_.BroadcastsInDim S1 (![] : Fin 0 → Fin S1.rank)
  concatenates_S1_S1_S2_d0 : Shape.Concatenates [S1, S1] S2 0
  bcast_S_S8x104 : S_.BroadcastsInDim S8x104 (![] : Fin 0 → Fin S8x104.rank)
  slices_S128x128_S100x4_0_0 : S128x128.Slices ![0, 0] S100x4
  transposes_S100x4_S4x100_1_0 : S100x4.Transposes [1, 0] S4x100
  slices_S128x128_S1x4_127_0 : S128x128.Slices ![127, 0] S1x4
  shapeCasts_S1x4_S4 : S1x4.ShapeCasts S4
  inb_S104x12_S104x12_0_0 : ∀ a, (![0, 0] : Fin 2 → Nat) a + S104x12.size a ≤ S104x12.size a
  h_S104x12 : 0 < S104x12.numel
  shapeCasts_S104x12_S104x12 : S104x12.ShapeCasts S104x12
  inb_S12x32768_S12x32768_0_0 : ∀ a, (![0, 0] : Fin 2 → Nat) a + S12x32768.size a ≤ S12x32768.size a
  h_S12x32768 : 0 < S12x32768.numel
  shapeCasts_S12x32768_S12x32768 : S12x32768.ShapeCasts S12x32768
  inb_S104x1_S104x1_0_0 : ∀ a, (![0, 0] : Fin 2 → Nat) a + S104x1.size a ≤ S104x1.size a
  h_S104x1 : 0 < S104x1.numel
  shapeCasts_S104x1_S104x1 : S104x1.ShapeCasts S104x1
  broadcasts_S104x1_S104x32768 : S104x1.Broadcasts S104x32768
  inb_S8x104_S8x104_0_0 : ∀ a, (![0, 0] : Fin 2 → Nat) a + S8x104.size a ≤ S8x104.size a
  h_S8x104 : 0 < S8x104.numel
  shapeCasts_S8x104_S8x104 : S8x104.ShapeCasts S8x104
  slices_S8x32768_o0_0_S4x32768 : S8x32768.Slices ![0, 0] S4x32768
  inb_S4x32768_S4x32768_0_0 : ∀ a, (![0, 0] : Fin 2 → Nat) a + S4x32768.size a ≤ S4x32768.size a
  h_S4x32768 : 0 < S4x32768.numel
  transposes_S4x524288_S524288x4_1_0 : S4x524288.Transposes [1, 0] S524288x4
  scatter_S104x1_S2_S__n_01_01_0_wf : ScatterDims.WF S104x1 S2 S_ [] [0, 1] [0, 1] 0
  scatter_S8x104_S2_S4x100_01_n_01_0_wf : ScatterDims.WF S8x104 S2 S4x100 [0, 1] [] [0, 1] 0
  scatter_S8x104_S2_S4_0_1_01_0_wf : ScatterDims.WF S8x104 S2 S4 [0] [1] [0, 1] 0
  dot_S104x12_S12x32768_S104x32768_1_0_0_1_n_n_wf : DotDims.WF S104x12 S12x32768 S104x32768 [1] [0] [0] [1] [] []
  dot_S8x104_S104x32768_S8x32768_1_0_0_1_n_n_wf : DotDims.WF S8x104 S104x32768 S8x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x32768.size a ≤ S12x524288.size a
  hwx0_0 : ∀ i : grid0.Coords, EltTy.bits .f32 = 32 ∨ (Rect.block (s := S12x524288) S12x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S104x12.size a ≤ S104x12.size a
  hwx0_1 : ∀ i : grid0.Coords, EltTy.bits .bf16 = 32 ∨ (Rect.block (s := S104x12) S104x12.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S104x1.size a ≤ S104x1.size a
  hwx0_2 : ∀ i : grid0.Coords, EltTy.bits .f32 = 32 ∨ (Rect.block (s := S104x1) S104x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x104.size a ≤ S8x104.size a
  hwx0_3 : ∀ i : grid0.Coords, EltTy.bits .bf16 = 32 ∨ (Rect.block (s := S8x104) S8x104.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x32768.size a ≤ S4x524288.size a
  hwx0_4 : ∀ i : grid0.Coords, EltTy.bits .f32 = 32 ∨ (Rect.block (s := S4x524288) S4x32768.size (cc0_transform_4 i) (hinb0_4 i)).WholeWords (EltTy.packing .f32)

variable [Facts₀]

def scatter_S104x1_S2_S__n_01_01_0 : ScatterDims S104x1 S2 S_ where
  updateWindowDims := []
  insertedWindowDims := [0, 1]
  scatterDimsToOperandDims := [0, 1]
  indexVectorDim := 0
  wf := scatter_S104x1_S2_S__n_01_01_0_wf
def scatter_S8x104_S2_S4x100_01_n_01_0 : ScatterDims S8x104 S2 S4x100 where
  updateWindowDims := [0, 1]
  insertedWindowDims := []
  scatterDimsToOperandDims := [0, 1]
  indexVectorDim := 0
  wf := scatter_S8x104_S2_S4x100_01_n_01_0_wf
def scatter_S8x104_S2_S4_0_1_01_0 : ScatterDims S8x104 S2 S4 where
  updateWindowDims := [0]
  insertedWindowDims := [1]
  scatterDimsToOperandDims := [0, 1]
  indexVectorDim := 0
  wf := scatter_S8x104_S2_S4_0_1_01_0_wf
def dot_S104x12_S12x32768_S104x32768_1_0_0_1_n_n : DotDims S104x12 S12x32768 S104x32768 where
  lhsContracting := [1]
  rhsContracting := [0]
  lhsNonContracting := [0]
  rhsNonContracting := [1]
  lhsBatch := []
  rhsBatch := []
  wf := dot_S104x12_S12x32768_S104x32768_1_0_0_1_n_n_wf
def dot_S8x104_S104x32768_S8x32768_1_0_0_1_n_n : DotDims S8x104 S104x32768 S8x32768 where
  lhsContracting := [1]
  rhsContracting := [0]
  lhsNonContracting := [0]
  rhsNonContracting := [1]
  lhsBatch := []
  rhsBatch := []
  wf := dot_S8x104_S104x32768_S8x32768_1_0_0_1_n_n_wf

abbrev win0_0 : Pipeline.Window sig grid0 :=
  Pipeline.Window.ofSpec (Memref.whole main_v0) S12x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S104x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S104x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8x104.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S4x32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x12 : Shape := ⟨2, ![524288, 12]⟩
abbrev S16x128 : Shape := ⟨2, ![16, 128]⟩
abbrev S128x128 : Shape := ⟨2, ![128, 128]⟩
abbrev S_ : Shape := ⟨0, ![]⟩
abbrev S524288x16 : Shape := ⟨2, ![524288, 16]⟩
abbrev S1 : Shape := ⟨1, ![1]⟩
abbrev S524288 : Shape := ⟨1, ![524288]⟩
abbrev S524288x128 : Shape := ⟨2, ![524288, 128]⟩
abbrev S256x16 : Shape := ⟨2, ![256, 16]⟩
abbrev S256x128 : Shape := ⟨2, ![256, 128]⟩
abbrev S524288x4 : Shape := ⟨2, ![524288, 4]⟩

abbrev nBuf : Space → Nat
  | .hbm => 15
  | .vmem => 6
  | .smem => 0
  | _ => 0

abbrev bufTy : (tb : Table) → Fin (tcTables nBuf tb) → BufTy
  | .hbm, ⟨0, _⟩ => ⟨S524288x12, .f32⟩
  | .hbm, ⟨1, _⟩ => ⟨S16x128, .f32⟩
  | .hbm, ⟨2, _⟩ => ⟨S128x128, .f32⟩
  | .hbm, ⟨3, _⟩ => ⟨S_, .f32⟩
  | .hbm, ⟨4, _⟩ => ⟨S524288x16, .f32⟩
  | .hbm, ⟨5, _⟩ => ⟨S_, .i32⟩
  | .hbm, ⟨6, _⟩ => ⟨S1, .i32⟩
  | .hbm, ⟨7, _⟩ => ⟨S524288x16, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S524288, .f32⟩
  | .hbm, ⟨12, _⟩ => ⟨S524288x16, .f32⟩
  | .hbm, ⟨13, _⟩ => ⟨S524288x128, .f32⟩
  | .hbm, ⟨14, _⟩ => ⟨S524288x4, .f32⟩
  | .local _ .vmem, ⟨0, _⟩ => ⟨S256x16, .f32⟩
  | .local _ .vmem, ⟨1, _⟩ => ⟨S256x16, .f32⟩
  | .local _ .vmem, ⟨2, _⟩ => ⟨S16x128, .f32⟩
  | .local _ .vmem, ⟨3, _⟩ => ⟨S128x128, .f32⟩
  | .local _ .vmem, ⟨4, _⟩ => ⟨S256x128, .f32⟩
  | .local _ .vmem, ⟨5, _⟩ => ⟨S256x128, .f32⟩
  | _, _ => ⟨S524288x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S524288x16 : S_.BroadcastsInDim S524288x16 (![] : Fin 0 → Fin S524288x16.rank)
  bcast_S_S1 : S_.BroadcastsInDim S1 (![] : Fin 0 → Fin S1.rank)
  bcast_S_S524288 : S_.BroadcastsInDim S524288 (![] : Fin 0 → Fin S524288.rank)
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  slices_S524288x128_S524288x4_0_0 : S524288x128.Slices ![0, 0] S524288x4
  scatter_S524288x16_S1_S524288x12_01_n_1_0_wf : ScatterDims.WF S524288x16 S1 S524288x12 [0, 1] [] [1] 0
  scatter_S524288x16_S1_S524288_0_1_1_0_wf : ScatterDims.WF S524288x16 S1 S524288 [0] [1] [1] 0
  dot_S256x16_S16x128_S256x128_1_0_0_1_n_n_wf : DotDims.WF S256x16 S16x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S524288x16.size a
  hwx0_0 : ∀ i : grid0.Coords, EltTy.bits .f32 = 32 ∨ (Rect.block (s := S524288x16) S256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S524288x128.size a
  hwx0_3 : ∀ i : grid0.Coords, EltTy.bits .f32 = 32 ∨ (Rect.block (s := S524288x128) S256x128.size (cc0_transform_3 i) (hinb0_3 i)).WholeWords (EltTy.packing .f32)

variable [Facts₀]

def scatter_S524288x16_S1_S524288x12_01_n_1_0 : ScatterDims S524288x16 S1 S524288x12 where
  updateWindowDims := [0, 1]
  insertedWindowDims := []
  scatterDimsToOperandDims := [1]
  indexVectorDim := 0
  wf := scatter_S524288x16_S1_S524288x12_01_n_1_0_wf
def scatter_S524288x16_S1_S524288_0_1_1_0 : ScatterDims S524288x16 S1 S524288 where
  updateWindowDims := [0]
  insertedWindowDims := [1]
  scatterDimsToOperandDims := [1]
  indexVectorDim := 0
  wf := scatter_S524288x16_S1_S524288_0_1_1_0_wf
def dot_S256x16_S16x128_S256x128_1_0_0_1_n_n : DotDims S256x16 S16x128 S256x128 where
  lhsContracting := [1]
  rhsContracting := [0]
  lhsNonContracting := [0]
  rhsNonContracting := [1]
  lhsBatch := []
  rhsBatch := []
  wf := dot_S256x16_S16x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v5) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.KerBody.lean ====
/-
  What the lane-major body stores, read at one entry: the body multiplies the 104 × 12 first-layer block by the
  12 × 32768 block of transposed inputs, adds the bias column along the lanes, clamps at zero, multiplies the
  8 × 104 second-layer block by the result and keeps the first four rows. At the extended reals (format
  changes are the identity, each matrix product into the zero block a plain sum) entry `(a, l)` is
    ∑ j, w2t[a, j] · max ((∑ k, w1t[j, k] · xt[k, l]) + bias[j, 0]) 0.
-/
import proofs.«166155_g2000002516493278_pallasbulk_279_28_alg».proof.Proof.Gen.KernelIdeal.Skeleton
import proofs.«166155_g2000002516493278_pallasbulk_279_28_alg».proof.Proof.LibMatmulNN
import proofs.«166155_g2000002516493278_pallasbulk_279_28_alg».proof.Proof.LibBroadcast2
import Idealize.ShloMosaic.Lib.Pipeline.Value
import Idealize.ShloMosaic.Lib.ValueIdx
import Idealize.ShloMosaic.PureOps.Ideal.Laws

noncomputable section

open scoped BigOperators

namespace Cert.KernelIdeal.LaneBody

open Idealize.ShloMosaic Idealize.ShloMosaic.ValueIdx Cert.KernelIdeal

/-- The hidden block at `(j, l)`: the clamped first-layer sum plus bias. -/
theorem hidden_apply (x1 : FVec Ideal S104x12 .bf16) (x0 : FVec Ideal S12x32768 .bf16) (x2 : FVec Ideal S104x1 .f32)
    (hb : S104x1.Broadcasts S104x32768) (j : Fin 104) (l : Fin 32768) :
    maximumf (addf (matmul (F := Ideal) (DotDims.plain 104 12 32768) none x1 x0 (constant (F := Ideal) S104x32768 .f32 0x00000000#32))
        (broadcastTo S104x32768 x2 hb)) (broadcast S104x32768 (Scalar.ofBits (F := Ideal) .f32 0x00000000#32)) (ix2 j l)
      = max ((∑ k : Fin 12, x1 (ix2 j k) * x0 (ix2 k l)) + x2 (ix2 j (0 : Fin 1))) 0 := by
  have h1 : matmul (F := Ideal) (DotDims.plain 104 12 32768) none x1 x0 (constant (F := Ideal) S104x32768 .f32 0x00000000#32) (ix2 j l)
      = ∑ k : Fin 12, x1 (ix2 j k) * x0 (ix2 k l) := LibMatmulNN.matmul_zero_apply 104 12 32768 none x1 x0 j l
  rw [maximumf_apply, addf_apply, broadcast_apply, h1, LibBroadcast2.broadcastTo_a1_ab_apply x2 hb j l]
  exact congrArg (max _) Ideal.ofBits_zero_f32

/-- The stored block at `(a, l)`. -/
theorem pay_apply (x1 : Vec Ideal S104x12 .bf16) (x0 : Vec Ideal S12x32768 .f32) (x2 : Vec Ideal S104x1 .f32)
    (x3 : Vec Ideal S8x104 .bf16) (a : Fin 4) (l : Fin 32768) :
    Gen.k0_pay1 (F := Ideal) x1 x0 x2 x3 (ix2 a l)
      = ∑ j : Fin 104, x3 (ix2 (⟨a.val, by omega⟩ : Fin 8) j)
          * max ((∑ k : Fin 12, x1 (ix2 j k) * x0 (ix2 k l)) + x2 (ix2 j (0 : Fin 1))) 0 := by
  unfold Gen.k0_pay1
  rw [shapeCast_self, shapeCast_self, shapeCast_self, shapeCast_self]
  refine (extractStridedSlice_apply ![0, 0] _ _ (ix2 a l) (ix2 (⟨a.val, by omega⟩ : Fin 8) l) (fun ax => ?_)).trans ?_
  · match ax with
    | ⟨0, _⟩ => exact (Nat.zero_add _).symm
    | ⟨1, _⟩ => exact (Nat.zero_add _).symm
  · refine (LibMatmulNN.matmul_zero_apply 8 104 32768 none x3 _ ⟨a.val, by omega⟩ l).trans ?_
    refine Finset.sum_congr rfl fun j _ => congrArg (x3 (ix2 (⟨a.val, by omega⟩ : Fin 8) j) * ·) ?_
    exact hidden_apply x1 x0 x2 _ j l

end Cert.KernelIdeal.LaneBody

end
-- ==== Proof.KerBlocks.lean ====
/-
  From blocks to the array, for the lane-major program. The grid has sixteen points; point `t` reads lanes
  `32768·t … 32768·t + 32767` of the transposed 12 × 524288 input and the three small matrices whole, and writes
  back lanes `32768·t …` of the 4 × 524288 result. So the result array, after the last point, holds at `(a, b)`
    ∑ j, w2t[a, j] · max ((∑ k, w1t[j, k] · xt[k, b]) + bias[j, 0]) 0
  of the four arrays the region finds: every lane `b` lies in exactly the block of point `b / 32768`.
-/
import proofs.«166155_g2000002516493278_pallasbulk_279_28_alg».proof.Proof.Gen.KernelIdeal.Frame
import proofs.«166155_g2000002516493278_pallasbulk_279_28_alg».proof.Proof.KerBody
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.LaneBlocks

open Cert.KernelIdeal Cert.KernelIdeal.Gen

variable (m : (ℓ : Loc nD τ sig) → Buf (Elt Ideal) ℓ) (ρ : Dev nD → PrngReg)

/-- Entry `(a, b)` of the lane-major result, from the four arrays the region reads. -/
def laneEntry (xt : S12x524288.Idx → EReal) (w1t : S104x12.Idx → EReal) (bc : S104x1.Idx → EReal) (w2t : S8x104.Idx → EReal)
    (a : Fin 4) (b : Fin 524288) : EReal :=
  ∑ j : Fin 104, w2t (ix2 (⟨a.val, by omega⟩ : Fin 8) j)
    * max ((∑ k : Fin 12, w1t (ix2 j k) * xt (ix2 k b)) + bc (ix2 j (0 : Fin 1))) 0

/-- The whole result array. -/
def laneArr (xt : S12x524288.Idx → EReal) (w1t : S104x12.Idx → EReal) (bc : S104x1.Idx → EReal) (w2t : S8x104.Idx → EReal) :
    S4x524288.Idx → EReal := fun i => laneEntry xt w1t bc w2t (i 0) (i 1)

/-- The stored block's entry `(a, l)` when the loaded blocks are the arrays' blocks: lane `l` of the input block is lane
    `b` of the input array, the three small blocks are their arrays. -/
theorem entry_of_blocks (X0 : Vec Ideal S12x32768 .f32) (X1 : Vec Ideal S104x12 .bf16) (X2 : Vec Ideal S104x1 .f32)
    (X3 : Vec Ideal S8x104 .bf16) (xt : S12x524288.Idx → EReal) (w1t : S104x12.Idx → EReal) (bc : S104x1.Idx → EReal)
    (w2t : S8x104.Idx → EReal) (a : Fin 4) (l : Fin 32768) (b : Fin 524288)
    (h0 : ∀ k : Fin 12, X0 (ix2 k l) = xt (ix2 k b)) (h1 : ∀ (j : Fin 104) (k : Fin 12), X1 (ix2 j k) = w1t (ix2 j k))
    (h2 : ∀ j : Fin 104, X2 (ix2 j (0 : Fin 1)) = bc (ix2 j (0 : Fin 1)))
    (h3 : ∀ (a' : Fin 8) (j : Fin 104), X3 (ix2 a' j) = w2t (ix2 a' j)) :
    k0_pay1 (F := Ideal) X1 X0 X2 X3 (ix2 a l) = laneEntry xt w1t bc w2t a b := by
  refine (LaneBody.pay_apply X1 X0 X2 X3 a l).trans ?_
  unfold laneEntry
  refine Finset.sum_congr rfl fun j _ => ?_
  rw [h3, h2]
  refine congrArg (fun s => w2t (ix2 (⟨a.val, by omega⟩ : Fin 8) j) * max (s + bc (ix2 j (0 : Fin 1))) 0) ?_
  refine Finset.sum_congr rfl fun k _ => ?_
  rw [h1, h0]

theorem hz : (![0, 0] : Fin 2 → Nat) = fun _ => 0 := funext fun a => by fin_cases a <;> rfl

/-- The printed index maps over the grid: the input and the result move along the lanes with the point, the three
    small matrices stay. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The input block at point `t`: lane `l` is lane `32768·t + l` of the array. -/
theorem iblk0_apply (c : Dev nD) (t : Fin cfg0.N) (k : Fin 12) (l : Fin 32768) (b : Fin 524288)
    (hb : b.val = t.val * 32768 + l.val) :
    (iblk m c 0 t : Vec Ideal S12x32768 .f32) (ix2 k l) = (V m c main_v0 : S12x524288.Idx → EReal) (ix2 k b) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 12 + 1 * k.val = k.val; rw [e0]; omega
  | ⟨1, _⟩ => show win0_0.index t 1 * 32768 + 1 * l.val = b.val; rw [e1, hb]; omega

/-- The first-layer block is the whole array. -/
theorem iblk1_apply (c : Dev nD) (t : Fin cfg0.N) (j : Fin 104) (k : Fin 12) :
    (iblk m c 1 t : Vec Ideal S104x12 .bf16) (ix2 j k) = (V m c main_v3 : S104x12.Idx → EReal) (ix2 j k) := by
  obtain ⟨-, -, e0, e1, -⟩ := idx_facts t
  unfold iblk
  rw [View.read_apply]
  show V m c main_v3 _ = V m c main_v3 _
  congr 1
  funext a
  apply Fin.ext
  match a with
  | ⟨0, _⟩ => show win0_1.index t 0 * 104 + 1 * j.val = j.val; rw [e0]; omega
  | ⟨1, _⟩ => show win0_1.index t 1 * 12 + 1 * k.val = k.val; rw [e1]; omega

/-- The bias block is the whole array. -/
theorem iblk2_apply (c : Dev nD) (t : Fin cfg0.N) (j : Fin 104) :
    (iblk m c 2 t : Vec Ideal S104x1 .f32) (ix2 j (0 : Fin 1)) = (V m c main_v9 : S104x1.Idx → EReal) (ix2 j (0 : Fin 1)) := by
  obtain ⟨-, -, -, -, e0, e1, -⟩ := idx_facts t
  unfold iblk
  rw [View.read_apply]
  show V m c main_v9 _ = V m c main_v9 _
  congr 1
  funext a
  apply Fin.ext
  match a with
  | ⟨0, _⟩ => show win0_2.index t 0 * 104 + 1 * j.val = j.val; rw [e0]; omega
  | ⟨1, _⟩ => show win0_2.index t 1 * 1 + 1 * 0 = 0; rw [e1]

/-- The second-layer block is the whole array. -/
theorem iblk3_apply (c : Dev nD) (t : Fin cfg0.N) (a' : Fin 8) (j : Fin 104) :
    (iblk m c 3 t : Vec Ideal S8x104 .bf16) (ix2 a' j) = (V m c main_v23 : S8x104.Idx → EReal) (ix2 a' j) := by
  obtain ⟨-, -, -, -, -, -, e0, e1, -⟩ := idx_facts t
  unfold iblk
  rw [View.read_apply]
  show V m c main_v23 _ = V m c main_v23 _
  congr 1
  funext a
  apply Fin.ext
  match a with
  | ⟨0, _⟩ => show win0_3.index t 0 * 8 + 1 * a'.val = a'.val; rw [e0]; omega
  | ⟨1, _⟩ => show win0_3.index t 1 * 104 + 1 * j.val = j.val; rw [e1]; omega

/-- WHAT POINT `t` WRITES BACK is block `t` of the result array. -/
theorem flushed_eq (c : Dev nD) (t : Fin cfg0.N) :
    (dats m 0 c).flushed 4 t = ((cfg0.win 4).blk t).view.read (Elt Ideal)
      (laneArr (V m c main_v0) (V m c main_v3) (V m c main_v9) (V m c main_v23)) := by
  show (cfg0.win 4).cut (grid0.coords t) ((dats m 0 c).after 4 t) = _
  rw [after0_4]
  unfold out0_4
  rw [View.canon_unit_zero hz]
  simp only [View.ld_unit_zero (S := S104x12) hz, View.ld_unit_zero (S := S12x32768) hz,
    View.ld_unit_zero (S := S104x1) hz, View.ld_unit_zero (S := S8x104) hz]
  obtain ⟨-, -, -, -, -, -, -, -, e0, e1⟩ := idx_facts t
  funext y
  have hN : cfg0.N = 16 := N_0
  have ht : t.val < 16 := by have := t.isLt; omega
  have hy0 : (y 0).val < 4 := (y 0).isLt
  have hy1 : (y 1).val < 32768 := (y 1).isLt
  have hlane : t.val * 32768 + (y 1).val < 524288 := by omega
  have hemb : ((cfg0.win 4).blk t).view.emb y = ix2 (⟨(y 0).val, hy0⟩ : Fin 4) (⟨t.val * 32768 + (y 1).val, hlane⟩ : Fin 524288) := by
    funext a
    apply Fin.ext
    match a with
    | ⟨0, _⟩ => show win0_4.index t (0 : Fin 2) * 4 + 1 * (y 0).val = (y 0).val; rw [e0]; omega
    | ⟨1, _⟩ => show win0_4.index t (1 : Fin 2) * 32768 + 1 * (y 1).val = t.val * 32768 + (y 1).val; rw [e1]; omega
  show k0_pay1 (F := Ideal) (iblk m c 1 t) (iblk m c 0 t) (iblk m c 2 t) (iblk m c 3 t) y
    = laneArr (V m c main_v0) (V m c main_v3) (V m c main_v9) (V m c main_v23) (((cfg0.win 4).blk t).view.emb y)
  rw [hemb]
  refine (congrArg (k0_pay1 (F := Ideal) (iblk m c 1 t) (iblk m c 0 t) (iblk m c 2 t) (iblk m c 3 t))
    (eq_ix2 (n0 := 4) (n1 := 32768) y)).trans ?_
  exact entry_of_blocks (iblk m c 0 t) (iblk m c 1 t) (iblk m c 2 t) (iblk m c 3 t)
    (V m c main_v0) (V m c main_v3) (V m c main_v9) (V m c main_v23) (y 0) (y 1) ⟨t.val * 32768 + (y 1).val, hlane⟩
    (fun k => iblk0_apply m c t k (y 1) _ rfl) (fun j k => iblk1_apply m c t j k) (fun j => iblk2_apply m c t j)
    (fun a' j => iblk3_apply m c t a' j)

/-- An index of the array is in point `t`'s block iff each coordinate is in the block's range on its axis. -/
theorem mem_blk (t : Fin cfg0.N) (i : S4x524288.Idx) :
    i ∈ ((cfg0.win 4).blk t).view.set ↔ ∀ a : Fin 2, win0_4.index t a * S4x32768.size a ≤ (i a).val
      ∧ (i a).val < win0_4.index t a * S4x32768.size a + S4x32768.size a := by
  show i ∈ ((View.whole main_v24).slice (win0_4.rect t)).set ↔ _
  rw [View.set_slice_whole, Rect.mem_set_unit]
  exact Iff.rfl

/-- THE ARRAY after the run: every lane lies in the block of the point its position divided by 32768 names. -/
theorem final (c : Dev nD) : (dats m 0 c).arrAt 4 cfg0.N
    = laneArr (V m c main_v0) (V m c main_v3) (V m c main_v9) (V m c main_v23) :=
  (dats m 0 c).arrAt_eq_of_cover 4 _ (fun t _ => flushed_eq m c t) fun i => by
    have hN : cfg0.N = 16 := N_0
    have hi0 : (i 0).val < 4 := (i 0).isLt
    have hi1 : (i 1).val < 524288 := (i 1).isLt
    let t : Fin cfg0.N := ⟨(i 1).val / 32768, by rw [hN]; omega⟩
    obtain ⟨-, -, -, -, -, -, -, -, e0, e1⟩ := idx_facts t
    refine ⟨t, flush0_4 t, ?_⟩
    rw [mem_blk]
    intro a
    match a with
    | ⟨0, _⟩ =>
      show win0_4.index t (0 : Fin 2) * 4 ≤ (i 0).val ∧ (i 0).val < win0_4.index t (0 : Fin 2) * 4 + 4
      rw [e0]; omega
    | ⟨1, _⟩ =>
      show win0_4.index t (1 : Fin 2) * 32768 ≤ (i 1).val ∧ (i 1).val < win0_4.index t (1 : Fin 2) * 32768 + 32768
      rw [e1]
      show (i 1).val / 32768 * 32768 ≤ (i 1).val ∧ (i 1).val < (i 1).val / 32768 * 32768 + 32768
      omega

end Cert.KernelIdeal.LaneBlocks

end
-- ==== Proof.KerTail.lean ====
/-
  The lane-major program's run, read: after the region the host transposes the 4 × 524288 result array into the
  524288 × 4 result, so the result holds at `(b, a)` the region's entry `(a, b)`.
-/
import proofs.«166155_g2000002516493278_pallasbulk_279_28_alg».proof.Proof.KerBlocks
import Idealize.ShloMosaic.Lib.ValueLayout
import Idealize.ShloMosaic.Lib.StableHlo.Run

noncomputable section

open scoped BigOperators
open Idealize.ShloMosaic Idealize.ShloMosaic.TcCoe Idealize.ShloMosaic.ValueIdx Idealize.SL.Sem
open Idealize.ShloMosaic.Pipeline (Dat)

namespace Cert.KernelIdeal.LaneRun

open Cert.KernelIdeal Cert.KernelIdeal.Gen

variable (m : (ℓ : Loc nD τ sig) → Buf (Elt Ideal) ℓ) (ρ : Dev nD → PrngReg)

/-- The host tail's result: the transposed result array of the region. -/
theorem tail_result (c : Dev nD) :
    (Pipeline.afterTail₀ cfgs (dats m) 0 (V0 m) [hostOps1] c main_v25 : S524288x4.Idx → EReal)
      = fun i => LaneBlocks.laneEntry (V m c main_v0) (V m c main_v3) (V m c main_v9) (V m c main_v23) (i 1) (i 0) := by
  unfold Pipeline.afterTail₀
  show StableHlo.after hostOps1 _ (Proc.devRef .tc main_v25) = _
  after_results
  have hA : (Pipeline.withArrays (cfgs 0).spec c (V0 m c) (fun w => (dats m 0 c).arrAt w (cfgs 0).N)
        (Proc.tc.devRef main_v24) : S4x524288.Idx → EReal)
      = LaneBlocks.laneArr (V m c main_v0) (V m c main_v3) (V m c main_v9) (V m c main_v23) :=
    (Pipeline.withArrays_arr spec0 launch0.win.arr_inj c _ _ 4).trans (LaneBlocks.final m c)
  rw [hA]
  funext i
  refine (congrArg _ (eq_ix2 (n0 := 524288) (n1 := 4) i)).trans ?_
  exact transpose_ix2_apply _ _ (i 0) (i 1)

/-- The run, read: the result at the lane-major entries of the arrays the region finds, the arguments unchanged. -/
theorem run_entries : θ_run (defs (F := Ideal)) (onTc (τ := τ) (main (F := Ideal))) ⟨m, fun _ => 0, ρ⟩ (fun r => ∀ c : Dev nD,
      r.2.mem ((c.tc : Thread nD τ).loc main_v25)
        = (fun i : S524288x4.Idx => LaneBlocks.laneEntry (V m c main_v0) (V m c main_v3) (V m c main_v9) (V m c main_v23) (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LaneRun

end
-- ==== Proof.QSpec.lean ====
/-
  The two-layer network both programs compute, as functions of the three argument arrays over the extended reals.

  The batch-major program augments each input row to sixteen entries (the twelve features, a one, three zeros),
  multiplies by the 16 × 128 first-layer matrix, clamps at zero, and multiplies by the 128 × 128 second-layer
  matrix; the first four output columns are the result: `rowQ`.

  The lane-major program works on the transposed problem with 104 hidden rows: hidden row `j` is the clamped sum
  over the twelve features of `w1[k, j] · x[b, k]` plus a bias column (`w1[12, j]`, except that row 100 holds a one), and
  output row `a` is the sum over the hidden rows of a small 8 × 104 matrix (rows 0..3: columns 0..99 the transposed
  second-layer block, column 100 the last row of the second-layer matrix, zero elsewhere) against them: `laneQ`.
-/
import Idealize.ShloMosaic.PureOps.Ideal
import Idealize.ShloMosaic.Lib.ValueIdx

noncomputable section

open scoped BigOperators

namespace QSpec

open Idealize.ShloMosaic Idealize.ShloMosaic.ValueIdx

abbrev SX : Shape := ⟨2, ![524288, 12]⟩
abbrev SW1 : Shape := ⟨2, ![16, 128]⟩
abbrev SW2 : Shape := ⟨2, ![128, 128]⟩
abbrev SQ : Shape := ⟨2, ![524288, 4]⟩

/-- The number one as both programs spell it: the single-precision word of 1.0 read exactly. -/
abbrev one : EReal := Ideal.ofBits .f32 0x3F800000#32

/-- Entry `k` of the augmented input row `b`: a one in position 12, the features before it, zeros after it. -/
def xaug (x : SX.Idx → EReal) (b : Fin 524288) (k : Fin 16) : EReal :=
  if k.val = 12 then one else if h : k.val < 12 then x (ix2 b ⟨k.val, h⟩) else 0

/-- The batch-major network at batch row `b`, output column `a`. -/
def rowQ (x : SX.Idx → EReal) (w1 : SW1.Idx → EReal) (w2 : SW2.Idx → EReal) (b : Fin 524288) (a : Fin 4) : EReal :=
  ∑ j : Fin 128, max (∑ k : Fin 16, xaug x b k * w1 (ix2 k j)) 0 * w2 (ix2 j ⟨a.val, by omega⟩)

/-- The bias column of the lane-major program: `w1[12, j]`, with a one in row 100. -/
def biasCol (w1 : SW1.Idx → EReal) (j : Fin 104) : EReal :=
  if j.val = 100 then one else w1 (ix2 (12 : Fin 16) ⟨j.val, by omega⟩)

/-- The 8 × 104 second-layer matrix of the lane-major program. -/
def w2t (w2 : SW2.Idx → EReal) (a : Fin 8) (j : Fin 104) : EReal :=
  if a.val < 4 ∧ j.val = 100 then w2 (ix2 (127 : Fin 128) ⟨a.val, by omega⟩)
  else if h : a.val < 4 ∧ j.val < 100 then w2 (ix2 ⟨j.val, by omega⟩ ⟨a.val, by omega⟩)
  else 0

/-- Hidden row `j` of the lane-major program at batch position `b`. -/
def laneHidden (x : SX.Idx → EReal) (w1 : SW1.Idx → EReal) (b : Fin 524288) (j : Fin 104) : EReal :=
  max ((∑ k : Fin 12, w1 (ix2 ⟨k.val, by omega⟩ ⟨j.val, by omega⟩) * x (ix2 b k)) + biasCol w1 j) 0

/-- The lane-major network at batch position `b`, output row `a`. -/
def laneQ (x : SX.Idx → EReal) (w1 : SW1.Idx → EReal) (w2 : SW2.Idx → EReal) (b : Fin 524288) (a : Fin 4) : EReal :=
  ∑ j : Fin 104, w2t w2 ⟨a.val, by omega⟩ j * laneHidden x w1 b j

end QSpec

end
-- ==== Proof.KerHostW1.lean ====
/-
  The first-layer operands of the lane-major program as its region finds them: the transposed input and the
  transposed 104 × 12 block of the first-layer matrix (its format change is the identity over the extended reals).
-/
import proofs.«166155_g2000002516493278_pallasbulk_279_28_alg».proof.Proof.Gen.KernelIdeal.Frame
import proofs.«166155_g2000002516493278_pallasbulk_279_28_alg».proof.Proof.QSpec
import Idealize.ShloMosaic.Lib.ValueIdx
import Idealize.ShloMosaic.Lib.Pipeline.Value
import Idealize.ShloMosaic.Lib.ValueLayout

noncomputable section

namespace Cert.KernelIdeal.HostValue

open Idealize.ShloMosaic Idealize.ShloMosaic.TcCoe Idealize.ShloMosaic.ValueIdx Idealize.SL.Sem Cert.KernelIdeal
open Cert.KernelIdeal.Facts₀

variable (m : (ℓ : Loc nD τ sig) → Buf (Elt Ideal) ℓ) (c : Dev nD)

/-- The transposed input: entry (k, b) is the input's entry (b, k). -/
theorem v0_apply (k : Fin 12) (b : Fin 524288) :
    (Gen.V m c main_v0 : S12x524288.Idx → EReal) (ix2 k b) = m ((c : Thread nD τ).loc main_arg0) (ix2 b k) := by
  have e : (Gen.V m c main_v0 : S12x524288.Idx → EReal)
      = transpose S12x524288 [1, 0] (m ((c : Thread nD τ).loc main_arg0) : S524288x12.Idx → EReal) transposes_S524288x12_S12x524288_1_0 := by
    show StableHlo.after Gen.hostOps0 (fun b => m (c, b)) (Proc.devRef .tc main_v0) = _
    after_results
  rw [e]
  refine transpose_apply _ _ _ _ _ (fun a => ?_)
  match a with
  | ⟨0, _⟩ => rfl
  | ⟨1, _⟩ => rfl

/-- The transposed first-layer block: entry (j, k) is the first-layer matrix's entry (k, j). -/
theorem v3_apply (j : Fin 104) (k : Fin 12) :
    (Gen.V m c main_v3 : S104x12.Idx → EReal) (ix2 j k)
      = m ((c : Thread nD τ).loc main_arg1) (ix2 ⟨k.val, by omega⟩ ⟨j.val, by omega⟩) := by
  have e : (Gen.V m c main_v3 : S104x12.Idx → EReal)
      = truncf (F := Ideal) .bf16 (transpose S104x12 [1, 0]
          (extractStridedSlice S12x104 ![0, 0] (m ((c : Thread nD τ).loc main_arg1) : S16x128.Idx → EReal) slices_S16x128_S12x104_0_0)
          transposes_S12x104_S104x12_1_0) bitsLt_bf16_f32 := by
    show StableHlo.after Gen.hostOps0 (fun b => m (c, b)) (Proc.devRef .tc main_v3) = _
    after_results
  rw [e, truncf_apply]
  refine (transpose_apply _ _ _ _ (ix2 k j) (fun a => ?_)).trans ?_
  · match a with
    | ⟨0, _⟩ => rfl
    | ⟨1, _⟩ => rfl
  refine extractStridedSlice_apply _ _ _ _ _ (fun a => ?_)
  match a with
  | ⟨0, _⟩ => show k.val = 0 + k.val; omega
  | ⟨1, _⟩ => show j.val = 0 + j.val; omega

end Cert.KernelIdeal.HostValue

end
-- ==== Proof.LibScatterSet.lean ====
/-
  A host scatter whose combiner keeps the update (`x.at[…].set(v)`) and whose updates are all one value `v`:
  the result holds `v` at every operand index that some update index lands on, and the operand's own element
  everywhere else. The scatter is a left fold over the update indices in row-major order; with a constant
  update the order does not matter, and the fold is read at an index by induction over the list of update
  indices already applied: an index holds `v` exactly when one of them has landed on it.

  For the two-axis window scatter (`operand.at[r0:r0+h, c0:c0+k].set(…)`: both operand axes are window axes, the
  start index a vector of two components read off a one-axis index tensor) the landing index of update index
  `(p, q)` is `(r0 + p, c0 + q)`, when that is inside the operand.
-/
import Idealize.ShloMosaic.PureOps.ShapeOps
import Idealize.ShloMosaic.Lib.ValueIdx

noncomputable section

namespace LibScatterSet

open Idealize.ShloMosaic Idealize.ShloMosaic.ValueIdx

variable {α : Type} {s si u : Shape} {w : Nat}

/-- One step of the fold: update index number `n` written (kept) at the operand index it lands on. -/
def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- One step at an index, for a constant update: `v` if this update lands there, else what was there. -/
theorem step_apply (d : ScatterDims s si u) (idx : IVec si w) (upd : u.Idx → α) (v : α) (hv : ∀ j, upd j = v)
    (r : s.Idx → α) (n : Fin u.numel) (i : s.Idx) :
    step d idx upd r n i = if d.resultIdx? (u.rowMajor.symm n) idx = some i then v else r i := by
  unfold step
  cases h : d.resultIdx? (u.rowMajor.symm n) idx with
  | none => simp
  | some i0 =>
    by_cases e : i = i0
    · subst e; simp [hv]
    · have : ¬ (some i0 = some i) := fun h' => e (Option.some.inj h').symm
      simp [e, this]

/-- The fold over any list of update indices, at an index. -/
theorem foldl_apply (d : ScatterDims s si u) (idx : IVec si w) (upd : u.Idx → α) (v : α) (hv : ∀ j, upd j = v)
    (i : s.Idx) : ∀ (L : List (Fin u.numel)) (r : s.Idx → α),
      L.foldl (step d idx upd) r i = if ∃ n ∈ L, d.resultIdx? (u.rowMajor.symm n) idx = some i then v else r i
  | [], r => by simp
  | n :: L, r => by
    rw [List.foldl_cons, foldl_apply d idx upd v hv i L, step_apply d idx upd v hv]
    by_cases hL : ∃ n' ∈ L, d.resultIdx? (u.rowMajor.symm n') idx = some i
    · rw [if_pos hL, if_pos (by obtain ⟨n', hn', e⟩ := hL; exact ⟨n', List.mem_cons_of_mem _ hn', e⟩)]
    · rw [if_neg hL]
      by_cases hn : d.resultIdx? (u.rowMajor.symm n) idx = some i
      · rw [if_pos hn, if_pos ⟨n, List.mem_cons_self, hn⟩]
      · rw [if_neg hn, if_neg]
        rintro ⟨n', hn', e⟩
        rcases List.mem_cons.mp hn' with rfl | h
        · exact hn e
        · exact hL ⟨n', h, e⟩

/-- THE SCATTER AT AN INDEX: `v` where some update index lands, the operand elsewhere. -/
theorem scatter_const_apply (d : ScatterDims s si u) (x : s.Idx → α) (idx : IVec si w) (upd : u.Idx → α) (v : α)
    (hv : ∀ j, upd j = v) (i : s.Idx) :
    Host.scatter d (fun _ b => b) x idx upd i = if ∃ j : u.Idx, d.resultIdx? j idx = some i then v else x i := by
  rw [scatter_eq_foldl, foldl_apply d idx upd v hv i]
  refine if_congr ⟨?_, ?_⟩ rfl rfl
  · rintro ⟨n, -, e⟩; exact ⟨_, e⟩
  · rintro ⟨j, e⟩
    exact ⟨u.rowMajor j, List.mem_finRange _, by rw [Equiv.symm_apply_apply]; exact e⟩

/-! ## The two-axis window scatter -/

section Window2

variable {R C r c : Nat}

/-- The dimension numbers of `operand.at[r0:r0+r, c0:c0+c].set(update)` as the host prints them: both operand
    axes are window axes, none inserted, the start index's two components go to the operand's two axes and
    lie along the index tensor's one axis. -/
abbrev win2 (h : ScatterDims.WF (⟨2, ![R, C]⟩ : Shape) ⟨1, ![2]⟩ ⟨2, ![r, c]⟩ [0, 1] [] [0, 1] 0) :
    ScatterDims (⟨2, ![R, C]⟩ : Shape) ⟨1, ![2]⟩ ⟨2, ![r, c]⟩ :=
  { updateWindowDims := [0, 1], insertedWindowDims := [], scatterDimsToOperandDims := [0, 1], indexVectorDim := 0, wf := h }

variable (h : ScatterDims.WF (⟨2, ![R, C]⟩ : Shape) ⟨1, ![2]⟩ ⟨2, ![r, c]⟩ [0, 1] [] [0, 1] 0)

theorem siIdx0 (j : (⟨2, ![r, c]⟩ : Shape).Idx) (hc) : (win2 h).siIdx j ⟨0, hc⟩ = ix1 (0 : Fin 2) := by
  funext b
  match b with
  | ⟨0, _⟩ => unfold ScatterDims.siIdx; rw [dif_pos rfl]; rfl

theorem siIdx1 (j : (⟨2, ![r, c]⟩ : Shape).Idx) (hc) : (win2 h).siIdx j ⟨1, hc⟩ = ix1 (1 : Fin 2) := by
  funext b
  match b with
  | ⟨0, _⟩ => unfold ScatterDims.siIdx; rw [dif_pos rfl]; rfl

theorem start0 (idx : IVec ⟨1, ![2]⟩ w) (j : (⟨2, ![r, c]⟩ : Shape).Idx) :
    (win2 h).start j idx 0 = (idx (ix1 (0 : Fin 2))).toInt := by
  unfold ScatterDims.start
  rw [dif_pos (show (0 : Fin 2) ∈ ([0, 1] : List (Fin 2)) from List.mem_cons_self)]
  exact congrArg (fun k => (idx k).toInt) (siIdx0 h j _)

theorem start1 (idx : IVec ⟨1, ![2]⟩ w) (j : (⟨2, ![r, c]⟩ : Shape).Idx) :
    (win2 h).start j idx 1 = (idx (ix1 (1 : Fin 2))).toInt := by
  unfold ScatterDims.start
  rw [dif_pos (show (1 : Fin 2) ∈ ([0, 1] : List (Fin 2)) from List.mem_cons_of_mem _ List.mem_cons_self)]
  exact congrArg (fun k => (idx k).toInt) (siIdx1 h j _)

theorem window0 (j : (⟨2, ![r, c]⟩ : Shape).Idx) : (win2 h).window j 0 = (j 0).val := by
  unfold ScatterDims.window
  have hm : (0 : Fin (⟨2, ![R, C]⟩ : Shape).rank) ∈ (win2 h).sKept :=
    show (0 : Fin 2) ∈ ([0, 1] : List (Fin 2)) from List.mem_cons_self
  rw [dif_pos hm]
  rfl

theorem window1 (j : (⟨2, ![r, c]⟩ : Shape).Idx) : (win2 h).window j 1 = (j 1).val := by
  unfold ScatterDims.window
  have hm : (1 : Fin (⟨2, ![R, C]⟩ : Shape).rank) ∈ (win2 h).sKept :=
    show (1 : Fin 2) ∈ ([0, 1] : List (Fin 2)) from List.mem_cons_of_mem _ List.mem_cons_self
  rw [dif_pos hm]
  rfl

/-- WHERE AN UPDATE INDEX LANDS: update index `j` lands on operand index `i` exactly when, on each axis, `i`'s
    coordinate is the start component (read signed) plus `j`'s coordinate. -/
theorem resultIdx?_eq_some_iff (idx : IVec ⟨1, ![2]⟩ w) (j : (⟨2, ![r, c]⟩ : Shape).Idx) (i : (⟨2, ![R, C]⟩ : Shape).Idx) :
    (win2 h).resultIdx? j idx = some i ↔
      ((i 0).val : Int) = (idx (ix1 (0 : Fin 2))).toInt + (j 0).val ∧ ((i 1).val : Int) = (idx (ix1 (1 : Fin 2))).toInt + (j 1).val := by
  unfold ScatterDims.resultIdx?
  have e0 : (win2 h).start j idx 0 + ((win2 h).window j 0 : Int) = (idx (ix1 (0 : Fin 2))).toInt + (j 0).val := by
    rw [start0, window0]
  have e1 : (win2 h).start j idx 1 + ((win2 h).window j 1 : Int) = (idx (ix1 (1 : Fin 2))).toInt + (j 1).val := by
    rw [start1, window1]
  constructor
  · intro hs
    split at hs
    · rename_i hin
      have hi := Option.some.inj hs
      have h0 := congrArg (fun f => ((f 0 : Fin _).val : Int)) hi
      have h1 := congrArg (fun f => ((f 1 : Fin _).val : Int)) hi
      simp only at h0 h1
      have b0 := hin 0
      have b1 := hin 1
      refine ⟨?_, ?_⟩
      · rw [← h0, ← e0]; exact Int.toNat_of_nonneg b0.1
      · rw [← h1, ← e1]; exact Int.toNat_of_nonneg b1.1
    · exact absurd hs (by simp)
  · rintro ⟨h0, h1⟩
    have hi0 : (i 0).val < R := (i 0).isLt
    have hi1 : (i 1).val < C := (i 1).isLt
    have hin : ∀ a, 0 ≤ (win2 h).start j idx a + ((win2 h).window j a : Int)
        ∧ (win2 h).start j idx a + ((win2 h).window j a : Int) < ((⟨2, ![R, C]⟩ : Shape).size a : Int) := by
      intro a
      match a with
      | ⟨0, _⟩ =>
        show 0 ≤ (win2 h).start j idx 0 + ((win2 h).window j 0 : Int) ∧ (win2 h).start j idx 0 + ((win2 h).window j 0 : Int) < (R : Int)
        rw [e0, ← h0]; exact ⟨Int.natCast_nonneg _, by exact_mod_cast hi0⟩
      | ⟨1, _⟩ =>
        show 0 ≤ (win2 h).start j idx 1 + ((win2 h).window j 1 : Int) ∧ (win2 h).start j idx 1 + ((win2 h).window j 1 : Int) < (C : Int)
        rw [e1, ← h1]; exact ⟨Int.natCast_nonneg _, by exact_mod_cast hi1⟩
    rw [dif_pos hin]
    congr 1
    funext a
    apply Fin.ext
    match a with
    | ⟨0, _⟩ => show ((win2 h).start j idx 0 + ((win2 h).window j 0 : Int)).toNat = (i 0).val; rw [e0, ← h0]; rfl
    | ⟨1, _⟩ => show ((win2 h).start j idx 1 + ((win2 h).window j 1 : Int)).toNat = (i 1).val; rw [e1, ← h1]; rfl

end Window2

end LibScatterSet

end
-- ==== Proof.LibScatterAt.lean ====
/-
  A host scatter whose combiner keeps the update (`x.at[…].set(u)`), read at one operand index, for any
  dimension numbers and any update array: the scatter is a left fold over the update indices, each step writing
  one update element at the operand index it lands on. If every update index that lands on operand index `i`
  carries the same value `v` (in particular when at most one lands there), the result at `i` is `v` when some
  update index lands on `i`, and the operand's own element otherwise.

  Where an update index lands: on every operand axis the landing coordinate is the window's start on that axis
  (read signed off the index tensor) plus the update index's window coordinate, provided the sum is inside the
  operand on every axis.
-/
import Idealize.ShloMosaic.PureOps.ShapeOps
import Idealize.ShloMosaic.Lib.ValueIdx
import proofs.«166155_g2000002516493278_pallasbulk_279_28_alg».proof.Proof.LibScatterSet

noncomputable section

namespace LibScatterAt

open Idealize.ShloMosaic

variable {α : Type} {s si u : Shape} {w : Nat}

/-- One step of the fold at operand index `i`, when every update landing on `i` carries `v`. -/
theorem step_apply (d : ScatterDims s si u) (idx : IVec si w) (upd : u.Idx → α) (i : s.Idx) (v : α)
    (hv : ∀ j, d.resultIdx? j idx = some i → upd j = v) (r : s.Idx → α) (n : Fin u.numel) :
    LibScatterSet.step d idx upd r n i = if d.resultIdx? (u.rowMajor.symm n) idx = some i then v else r i := by
  unfold LibScatterSet.step
  cases h : d.resultIdx? (u.rowMajor.symm n) idx with
  | none => simp
  | some i0 =>
    by_cases e : i = i0
    · subst e; simp [hv _ h]
    · have : ¬ (some i0 = some i) := fun h' => e (Option.some.inj h').symm
      simp [e, this]

/-- The fold over any list of update indices, at operand index `i`. -/
theorem foldl_apply (d : ScatterDims s si u) (idx : IVec si w) (upd : u.Idx → α) (i : s.Idx) (v : α)
    (hv : ∀ j, d.resultIdx? j idx = some i → upd j = v) : ∀ (L : List (Fin u.numel)) (r : s.Idx → α),
      L.foldl (LibScatterSet.step d idx upd) r i
        = if ∃ n ∈ L, d.resultIdx? (u.rowMajor.symm n) idx = some i then v else r i
  | [], r => by simp
  | n :: L, r => by
    rw [List.foldl_cons, foldl_apply d idx upd i v hv L, step_apply d idx upd i v hv]
    by_cases hL : ∃ n' ∈ L, d.resultIdx? (u.rowMajor.symm n') idx = some i
    · rw [if_pos hL, if_pos (by obtain ⟨n', hn', e⟩ := hL; exact ⟨n', List.mem_cons_of_mem _ hn', e⟩)]
    · rw [if_neg hL]
      by_cases hn : d.resultIdx? (u.rowMajor.symm n) idx = some i
      · rw [if_pos hn, if_pos ⟨n, List.mem_cons_self, hn⟩]
      · rw [if_neg hn, if_neg]
        rintro ⟨n', hn', e⟩
        rcases List.mem_cons.mp hn' with rfl | h
        · exact hn e
        · exact hL ⟨n', h, e⟩

/-- THE SCATTER AT AN INDEX: the common value of the updates landing there, or the operand's element. -/
theorem scatter_apply (d : ScatterDims s si u) (x : s.Idx → α) (idx : IVec si w) (upd : u.Idx → α) (i : s.Idx) (v : α)
    (hv : ∀ j, d.resultIdx? j idx = some i → upd j = v) :
    Host.scatter d (fun _ b => b) x idx upd i = if ∃ j : u.Idx, d.resultIdx? j idx = some i then v else x i := by
  rw [LibScatterSet.scatter_eq_foldl, foldl_apply d idx upd i v hv]
  refine if_congr ⟨?_, ?_⟩ rfl rfl
  · rintro ⟨n, -, e⟩; exact ⟨_, e⟩
  · rintro ⟨j, e⟩
    exact ⟨u.rowMajor j, List.mem_finRange _, by rw [Equiv.symm_apply_apply]; exact e⟩

/-- WHERE AN UPDATE INDEX LANDS: on operand index `i` exactly when every coordinate of `i` is the window's start
    plus the window coordinate on that axis. -/
theorem resultIdx?_eq_some_iff (d : ScatterDims s si u) (idx : IVec si w) (j : u.Idx) (i : s.Idx) :
    d.resultIdx? j idx = some i ↔ ∀ a, ((i a).val : Int) = d.start j idx a + (d.window j a : Int) := by
  unfold ScatterDims.resultIdx?
  constructor
  · intro hs
    split at hs
    · rename_i hin
      have hi := Option.some.inj hs
      intro a
      have h0 := congrArg (fun f => ((f a : Fin _).val : Int)) hi
      simp only at h0
      rw [← h0]; exact Int.toNat_of_nonneg (hin a).1
    · exact absurd hs (by simp)
  · intro hall
    have hin : ∀ a, 0 ≤ d.start j idx a + (d.window j a : Int)
        ∧ d.start j idx a + (d.window j a : Int) < (s.size a : Int) := by
      intro a
      rw [← hall a]
      exact ⟨Int.natCast_nonneg _, by exact_mod_cast (i a).isLt⟩
    rw [dif_pos hin]
    congr 1
    funext a
    apply Fin.ext
    show (d.start j idx a + (d.window j a : Int)).toNat = (i a).val
    rw [← hall a]; rfl

end LibScatterAt

end
-- ==== Proof.LibScatterPair.lean ====
/-
  The window arithmetic of the two scatters with inserted operand axes, over a two-axis operand and a start
  index of two components read off a one-axis index tensor.

  The point scatter (`operand.at[r0, c0].set(v)`, a scalar update): both operand axes are inserted, so the window
  coordinate is zero on both and the one update lands on `(r0, c0)`.

  The column scatter (`operand.at[r0:r0+r, c0].set(update)`, a one-axis update): operand axis 0 is the window axis,
  axis 1 is inserted, so update index `p` lands on `(r0 + p, c0)`.
-/
import Idealize.ShloMosaic.PureOps.ShapeOps
import Idealize.ShloMosaic.Lib.ValueIdx
import proofs.«166155_g2000002516493278_pallasbulk_279_28_alg».proof.Proof.LibScatterAt

noncomputable section

namespace LibScatterPair

open Idealize.ShloMosaic Idealize.ShloMosaic.ValueIdx

variable {w R C r : Nat}

section Point

/-- The dimension numbers of the point scatter. -/
abbrev pt2 (h : ScatterDims.WF (⟨2, ![R, C]⟩ : Shape) ⟨1, ![2]⟩ ⟨0, ![]⟩ [] [0, 1] [0, 1] 0) :
    ScatterDims (⟨2, ![R, C]⟩ : Shape) ⟨1, ![2]⟩ ⟨0, ![]⟩ :=
  { updateWindowDims := [], insertedWindowDims := [0, 1], scatterDimsToOperandDims := [0, 1], indexVectorDim := 0, wf := h }

variable (h : ScatterDims.WF (⟨2, ![R, C]⟩ : Shape) ⟨1, ![2]⟩ ⟨0, ![]⟩ [] [0, 1] [0, 1] 0)

theorem pt2_siIdx0 (j : (⟨0, ![]⟩ : Shape).Idx) (hc) : (pt2 h).siIdx j ⟨0, hc⟩ = ix1 (0 : Fin 2) := by
  funext b
  match b with
  | ⟨0, _⟩ => unfold ScatterDims.siIdx; rw [dif_pos rfl]; rfl

theorem pt2_siIdx1 (j : (⟨0, ![]⟩ : Shape).Idx) (hc) : (pt2 h).siIdx j ⟨1, hc⟩ = ix1 (1 : Fin 2) := by
  funext b
  match b with
  | ⟨0, _⟩ => unfold ScatterDims.siIdx; rw [dif_pos rfl]; rfl

theorem pt2_start0 (idx : IVec ⟨1, ![2]⟩ w) (j : (⟨0, ![]⟩ : Shape).Idx) :
    (pt2 h).start j idx 0 = (idx (ix1 (0 : Fin 2))).toInt := by
  unfold ScatterDims.start
  rw [dif_pos (show (0 : Fin 2) ∈ ([0, 1] : List (Fin 2)) from List.mem_cons_self)]
  exact congrArg (fun k => (idx k).toInt) (pt2_siIdx0 h j _)

theorem pt2_start1 (idx : IVec ⟨1, ![2]⟩ w) (j : (⟨0, ![]⟩ : Shape).Idx) :
    (pt2 h).start j idx 1 = (idx (ix1 (1 : Fin 2))).toInt := by
  unfold ScatterDims.start
  rw [dif_pos (show (1 : Fin 2) ∈ ([0, 1] : List (Fin 2)) from List.mem_cons_of_mem _ List.mem_cons_self)]
  exact congrArg (fun k => (idx k).toInt) (pt2_siIdx1 h j _)

theorem pt2_window (j : (⟨0, ![]⟩ : Shape).Idx) (a : Fin 2) : (pt2 h).window j a = 0 := by
  unfold ScatterDims.window
  have hm : a ∉ (pt2 h).sKept := by
    show a ∉ (List.finRange 2).filter (· ∉ ([0, 1] : List (Fin 2)))
    revert a; decide
  rw [dif_neg hm]

/-- WHERE THE POINT SCATTER'S UPDATE LANDS: on the operand index whose coordinates are the two start components. -/
theorem pt2_lands_iff (idx : IVec ⟨1, ![2]⟩ w) (j : (⟨0, ![]⟩ : Shape).Idx) (i : (⟨2, ![R, C]⟩ : Shape).Idx) :
    (pt2 h).resultIdx? j idx = some i ↔
      ((i 0).val : Int) = (idx (ix1 (0 : Fin 2))).toInt ∧ ((i 1).val : Int) = (idx (ix1 (1 : Fin 2))).toInt := by
  rw [LibScatterAt.resultIdx?_eq_some_iff]
  constructor
  · intro hall
    have h0 := hall 0
    have h1 := hall 1
    rw [pt2_start0, pt2_window] at h0
    rw [pt2_start1, pt2_window] at h1
    exact ⟨by simpa using h0, by simpa using h1⟩
  · rintro ⟨h0, h1⟩ a
    match a with
    | ⟨0, _⟩ =>
      show ((i 0).val : Int) = (pt2 h).start j idx 0 + ((pt2 h).window j 0 : Int)
      rw [pt2_start0, pt2_window, h0]; simp
    | ⟨1, _⟩ =>
      show ((i 1).val : Int) = (pt2 h).start j idx 1 + ((pt2 h).window j 1 : Int)
      rw [pt2_start1, pt2_window, h1]; simp

end Point

section Column

/-- The dimension numbers of the column scatter. -/
abbrev col2 (h : ScatterDims.WF (⟨2, ![R, C]⟩ : Shape) ⟨1, ![2]⟩ ⟨1, ![r]⟩ [0] [1] [0, 1] 0) :
    ScatterDims (⟨2, ![R, C]⟩ : Shape) ⟨1, ![2]⟩ ⟨1, ![r]⟩ :=
  { updateWindowDims := [0], insertedWindowDims := [1], scatterDimsToOperandDims := [0, 1], indexVectorDim := 0, wf := h }

variable (h : ScatterDims.WF (⟨2, ![R, C]⟩ : Shape) ⟨1, ![2]⟩ ⟨1, ![r]⟩ [0] [1] [0, 1] 0)

theorem col2_siIdx0 (j : (⟨1, ![r]⟩ : Shape).Idx) (hc) : (col2 h).siIdx j ⟨0, hc⟩ = ix1 (0 : Fin 2) := by
  funext b
  match b with
  | ⟨0, _⟩ => unfold ScatterDims.siIdx; rw [dif_pos rfl]; rfl

theorem col2_siIdx1 (j : (⟨1, ![r]⟩ : Shape).Idx) (hc) : (col2 h).siIdx j ⟨1, hc⟩ = ix1 (1 : Fin 2) := by
  funext b
  match b with
  | ⟨0, _⟩ => unfold ScatterDims.siIdx; rw [dif_pos rfl]; rfl

theorem col2_start0 (idx : IVec ⟨1, ![2]⟩ w) (j : (⟨1, ![r]⟩ : Shape).Idx) :
    (col2 h).start j idx 0 = (idx (ix1 (0 : Fin 2))).toInt := by
  unfold ScatterDims.start
  rw [dif_pos (show (0 : Fin 2) ∈ ([0, 1] : List (Fin 2)) from List.mem_cons_self)]
  exact congrArg (fun k => (idx k).toInt) (col2_siIdx0 h j _)

theorem col2_start1 (idx : IVec ⟨1, ![2]⟩ w) (j : (⟨1, ![r]⟩ : Shape).Idx) :
    (col2 h).start j idx 1 = (idx (ix1 (1 : Fin 2))).toInt := by
  unfold ScatterDims.start
  rw [dif_pos (show (1 : Fin 2) ∈ ([0, 1] : List (Fin 2)) from List.mem_cons_of_mem _ List.mem_cons_self)]
  exact congrArg (fun k => (idx k).toInt) (col2_siIdx1 h j _)

theorem col2_window0 (j : (⟨1, ![r]⟩ : Shape).Idx) : (col2 h).window j 0 = (j 0).val := by
  unfold ScatterDims.window
  have hm : (0 : Fin (⟨2, ![R, C]⟩ : Shape).rank) ∈ (col2 h).sKept := by
    show (0 : Fin 2) ∈ (List.finRange 2).filter (· ∉ ([1] : List (Fin 2)))
    decide
  rw [dif_pos hm]
  rfl

theorem col2_window1 (j : (⟨1, ![r]⟩ : Shape).Idx) : (col2 h).window j 1 = 0 := by
  unfold ScatterDims.window
  have hm : (1 : Fin (⟨2, ![R, C]⟩ : Shape).rank) ∉ (col2 h).sKept := by
    show (1 : Fin 2) ∉ (List.finRange 2).filter (· ∉ ([1] : List (Fin 2)))
    decide
  rw [dif_neg hm]

/-- WHERE AN UPDATE INDEX OF THE COLUMN SCATTER LANDS: `p` lands on the operand index whose row is the first start
    component plus `p` and whose column is the second start component. -/
theorem col2_lands_iff (idx : IVec ⟨1, ![2]⟩ w) (j : (⟨1, ![r]⟩ : Shape).Idx) (i : (⟨2, ![R, C]⟩ : Shape).Idx) :
    (col2 h).resultIdx? j idx = some i ↔
      ((i 0).val : Int) = (idx (ix1 (0 : Fin 2))).toInt + (j 0).val ∧ ((i 1).val : Int) = (idx (ix1 (1 : Fin 2))).toInt := by
  rw [LibScatterAt.resultIdx?_eq_some_iff]
  constructor
  · intro hall
    have h0 := hall 0
    have h1 := hall 1
    rw [col2_start0, col2_window0] at h0
    rw [col2_start1, col2_window1] at h1
    exact ⟨h0, by simpa using h1⟩
  · rintro ⟨h0, h1⟩ a
    match a with
    | ⟨0, _⟩ =>
      show ((i 0).val : Int) = (col2 h).start j idx 0 + ((col2 h).window j 0 : Int)
      rw [col2_start0, col2_window0, h0]
    | ⟨1, _⟩ =>
      show ((i 1).val : Int) = (col2 h).start j idx 1 + ((col2 h).window j 1 : Int)
      rw [col2_start1, col2_window1, h1]; simp

end Column

end LibScatterPair

end
-- ==== Proof.KerHostIdx.lean ====
/-
  The start-index tensors of the host scatters: two 32-bit integer constants, each broadcast to a one-entry vector,
  laid end to end into a vector of two components; and the two constants that occur, read as signed integers.
-/
import proofs.«166155_g2000002516493278_pallasbulk_279_28_alg».proof.Proof.Gen.KernelIdeal
import Idealize.ShloMosaic.Lib.ValueIdx
import Idealize.ShloMosaic.Lib.Pipeline.Value

noncomputable section

namespace Cert.KernelIdeal.HostValue

open Idealize.ShloMosaic Idealize.ShloMosaic.TcCoe Idealize.ShloMosaic.ValueIdx Idealize.SL.Sem Cert.KernelIdeal
open Cert.KernelIdeal.Facts₀

variable (m : (ℓ : Loc nD τ sig) → Buf (Elt Ideal) ℓ) (c : Dev nD)

/-- A start-index tensor: two integer constants, each made a one-entry vector, laid end to end. -/
abbrev pairIdx (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem pairIdx_0 (a b : BitVec 32) : pairIdx a b (ix1 (0 : Fin 2)) = a := by
  refine (concatenate_pair_apply_left (0 : Fin S2.rank) _ _ concatenates_S1_S1_S2_d0 (ix1 (0 : Fin 2)) rfl
    (ix1 (0 : Fin 1)) (fun d => ?_)).trans rfl
  match d with
  | ⟨0, _⟩ => rfl

theorem pairIdx_1 (a b : BitVec 32) : pairIdx a b (ix1 (1 : Fin 2)) = b := by
  refine (concatenate_pair_apply_right (0 : Fin S2.rank) _ _ concatenates_S1_S1_S2_d0 (ix1 (1 : Fin 2)) rfl rfl
    (ix1 (0 : Fin 1)) (fun d hd => ?_) rfl).trans rfl
  match d with
  | ⟨0, _⟩ => exact absurd rfl hd

theorem toInt_zero32 : ((0#32 : BitVec 32)).toInt = 0 := by decide
theorem toInt_hundred32 : ((100#32 : BitVec 32)).toInt = 100 := by decide

end Cert.KernelIdeal.HostValue

end
-- ==== Proof.KerHostBias.lean ====
/-
  The bias column of the lane-major program as its region finds it: row 12 of the first-layer matrix laid down a
  column of 104 entries, with the number one written at row 100 by a point scatter whose start index is the pair
  (100, 0).
-/
import proofs.«166155_g2000002516493278_pallasbulk_279_28_alg».proof.Proof.Gen.KernelIdeal.Frame
import proofs.«166155_g2000002516493278_pallasbulk_279_28_alg».proof.Proof.QSpec
import Idealize.ShloMosaic.Lib.ValueIdx
import Idealize.ShloMosaic.Lib.Pipeline.Value
import Idealize.ShloMosaic.Lib.ValueLayout
import proofs.«166155_g2000002516493278_pallasbulk_279_28_alg».proof.Proof.LibScatterSet
import proofs.«166155_g2000002516493278_pallasbulk_279_28_alg».proof.Proof.LibScatterAt
import proofs.«166155_g2000002516493278_pallasbulk_279_28_alg».proof.Proof.LibScatterPair
import proofs.«166155_g2000002516493278_pallasbulk_279_28_alg».proof.Proof.KerHostIdx

noncomputable section

namespace Cert.KernelIdeal.HostValue

open Idealize.ShloMosaic Idealize.ShloMosaic.TcCoe Idealize.ShloMosaic.ValueIdx Idealize.SL.Sem Cert.KernelIdeal
open Cert.KernelIdeal.Facts₀ LibScatterPair

variable (m : (ℓ : Loc nD τ sig) → Buf (Elt Ideal) ℓ) (c : Dev nD)

/-- The bias column: row 12 of the first-layer matrix, with a one at row 100. -/
theorem v9_apply (j : Fin 104) :
    (Gen.V m c main_v9 : S104x1.Idx → EReal) (ix2 j (0 : Fin 1)) = QSpec.biasCol (m ((c : Thread nD τ).loc main_arg1)) j := by
  have e : (Gen.V m c main_v9 : S104x1.Idx → EReal)
      = Host.scatter scatter_S104x1_S2_S__n_01_01_0 (fun _ b => b)
          (transpose S104x1 [1, 0]
            (extractStridedSlice S1x104 ![12, 0] (m ((c : Thread nD τ).loc main_arg1) : S16x128.Idx → EReal) slices_S16x128_S1x104_12_0)
            transposes_S1x104_S104x1_1_0)
          (pairIdx 100#32 0#32)
          (constant (F := Ideal) S_ .f32 0x3F800000#32) := by
    show StableHlo.after Gen.hostOps0 (fun b => m (c, b)) (Proc.devRef .tc main_v9) = _
    after_results
    rfl
  have hd : scatter_S104x1_S2_S__n_01_01_0 = pt2 scatter_S104x1_S2_S__n_01_01_0_wf := rfl
  rw [e, hd]
  refine (LibScatterSet.scatter_const_apply (pt2 _) _ _ (constant (F := Ideal) S_ .f32 0x3F800000#32) QSpec.one (fun _ => rfl) _).trans ?_
  unfold QSpec.biasCol
  have h100 := toInt_hundred32
  have h0 := toInt_zero32
  have e0 : ((ix2 j (0 : Fin 1) : S104x1.Idx) 0).val = j.val := rfl
  refine if_congr ?_ rfl ?_
  · constructor
    · rintro ⟨u, hu⟩
      have hl := ((pt2_lands_iff _ _ _ _).mp hu).1
      rw [pairIdx_0, h100, e0] at hl
      omega
    · intro hj
      refine ⟨ix0, (pt2_lands_iff _ _ _ _).mpr ⟨?_, ?_⟩⟩
      · rw [pairIdx_0, h100, e0]; omega
      · rw [pairIdx_1, h0]; rfl
  · refine (transpose_apply _ _ _ _ (ix2 (0 : Fin 1) j) (fun a => ?_)).trans ?_
    · match a with
      | ⟨0, _⟩ => rfl
      | ⟨1, _⟩ => rfl
    refine extractStridedSlice_apply _ _ _ _ _ (fun a => ?_)
    match a with
    | ⟨0, _⟩ => rfl
    | ⟨1, _⟩ => show j.val = 0 + j.val; omega

end Cert.KernelIdeal.HostValue

end
-- ==== Proof.KerHostW2.lean ====
/-
  The second-layer matrix of the lane-major program as its region finds it: an 8 × 104 array of zeros into which the
  transposed 4 × 100 block of the second-layer matrix is written at (0, 0), then the first four entries of the matrix's
  last row down column 100; its format change is the identity over the extended reals.
-/
import proofs.«166155_g2000002516493278_pallasbulk_279_28_alg».proof.Proof.Gen.KernelIdeal.Frame
import proofs.«166155_g2000002516493278_pallasbulk_279_28_alg».proof.Proof.QSpec
import Idealize.ShloMosaic.Lib.ValueIdx
import Idealize.ShloMosaic.Lib.Pipeline.Value
import Idealize.ShloMosaic.Lib.ValueLayout
import Idealize.ShloMosaic.Lib.IdealHost
import proofs.«166155_g2000002516493278_pallasbulk_279_28_alg».proof.Proof.LibScatterSet
import proofs.«166155_g2000002516493278_pallasbulk_279_28_alg».proof.Proof.LibScatterAt
import proofs.«166155_g2000002516493278_pallasbulk_279_28_alg».proof.Proof.LibScatterPair
import proofs.«166155_g2000002516493278_pallasbulk_279_28_alg».proof.Proof.KerHostIdx

noncomputable section

namespace Cert.KernelIdeal.HostValue

open Idealize.ShloMosaic Idealize.ShloMosaic.TcCoe Idealize.ShloMosaic.ValueIdx Idealize.SL.Sem Cert.KernelIdeal
open Cert.KernelIdeal.Facts₀ LibScatterPair

variable (m : (ℓ : Loc nD τ sig) → Buf (Elt Ideal) ℓ) (c : Dev nD)

section Stages

variable (w2 : S128x128.Idx → EReal)

/-- The transposed 4 × 100 block. -/
abbrev blkT : S4x100.Idx → EReal :=
  transpose S4x100 [1, 0] (extractStridedSlice S100x4 ![0, 0] w2 slices_S128x128_S100x4_0_0) transposes_S100x4_S4x100_1_0

theorem blkT_apply (p : Fin 4) (q : Fin 100) :
    blkT w2 (ix2 p q) = w2 (ix2 ⟨q.val, by omega⟩ ⟨p.val, by omega⟩) := by
  refine (transpose_apply _ _ _ _ (ix2 q p) (fun a => ?_)).trans ?_
  · match a with
    | ⟨0, _⟩ => rfl
    | ⟨1, _⟩ => rfl
  refine extractStridedSlice_apply _ _ _ _ _ (fun a => ?_)
  match a with
  | ⟨0, _⟩ => show q.val = 0 + q.val; omega
  | ⟨1, _⟩ => show p.val = 0 + p.val; omega

/-- The first four entries of the last row, as a vector. -/
abbrev lastRow : S4.Idx → EReal :=
  shapeCast S4 (extractStridedSlice S1x4 ![127, 0] w2 slices_S128x128_S1x4_127_0) shapeCasts_S1x4_S4

theorem lastRow_apply (p : Fin 4) : lastRow w2 (ix1 p) = w2 (ix2 (127 : Fin 128) ⟨p.val, by omega⟩) := by
  refine (shapeCast_apply _ _ (ix1 p) (ix2 (0 : Fin 1) p) ?_).trans ?_
  · rw [Shape.rowMajor_val_two, Shape.rowMajor_val_one]
    show (0 : Nat) * 4 + p.val = p.val
    omega
  refine extractStridedSlice_apply _ _ _ _ _ (fun a => ?_)
  match a with
  | ⟨0, _⟩ => rfl
  | ⟨1, _⟩ => show p.val = 0 + p.val; omega

/-- The array of zeros. -/
abbrev zeros : S8x104.Idx → EReal :=
  broadcastInDim S8x104 ![] bcast_S_S8x104 (constant (F := Ideal) S_ .f32 0x00000000#32)

theorem zeros_apply (i : S8x104.Idx) : zeros i = 0 := by
  refine (broadcastInDim_scalar_apply _ _ i).trans ?_
  exact Ideal.ofBits_zero_f32

/-- After the first scatter: the transposed block in rows 0..3, columns 0..99. -/
def stage1 : S8x104.Idx → EReal :=
  Host.scatter scatter_S8x104_S2_S4x100_01_n_01_0 (fun _ b => b) zeros (pairIdx 0#32 0#32) (blkT w2)

theorem stage1_apply (a : Fin 8) (j : Fin 104) :
    stage1 w2 (ix2 a j) = if h : a.val < 4 ∧ j.val < 100 then w2 (ix2 ⟨j.val, by omega⟩ ⟨a.val, by omega⟩) else 0 := by
  have hd : scatter_S8x104_S2_S4x100_01_n_01_0 = LibScatterSet.win2 scatter_S8x104_S2_S4x100_01_n_01_0_wf := rfl
  -- where an update index lands, in coordinates
  have lands : ∀ (p0 : Fin 4) (p1 : Fin 100),
      (LibScatterSet.win2 scatter_S8x104_S2_S4x100_01_n_01_0_wf).resultIdx? (ix2 p0 p1 : S4x100.Idx) (pairIdx 0#32 0#32)
          = some (ix2 a j : S8x104.Idx) ↔ a.val = p0.val ∧ j.val = p1.val := by
    intro p0 p1
    rw [LibScatterSet.resultIdx?_eq_some_iff, pairIdx_0, pairIdx_1, toInt_zero32]
    show ((a.val : Int) = 0 + (p0.val : Int) ∧ (j.val : Int) = 0 + (p1.val : Int)) ↔ _
    omega
  unfold stage1
  rw [hd]
  by_cases h : a.val < 4 ∧ j.val < 100
  · rw [dif_pos h]
    refine (LibScatterAt.scatter_apply (LibScatterSet.win2 _) _ _ _ _ (w2 (ix2 ⟨j.val, by omega⟩ ⟨a.val, by omega⟩)) (fun p hp => ?_)).trans ?_
    · obtain ⟨p0, p1, rfl⟩ : ∃ (p0 : Fin 4) (p1 : Fin 100), p = (ix2 p0 p1 : S4x100.Idx) := ⟨p 0, p 1, eq_ix2 p⟩
      obtain ⟨h0, h1⟩ := (lands p0 p1).mp hp
      rw [blkT_apply]
      congr 1
      funext d
      match d with
      | ⟨0, _⟩ => exact Fin.ext h1.symm
      | ⟨1, _⟩ => exact Fin.ext h0.symm
    · exact if_pos ⟨ix2 ⟨a.val, h.1⟩ ⟨j.val, h.2⟩, (lands ⟨a.val, h.1⟩ ⟨j.val, h.2⟩).mpr ⟨rfl, rfl⟩⟩
  · rw [dif_neg h]
    have hno : ¬ ∃ p : S4x100.Idx, (LibScatterSet.win2 scatter_S8x104_S2_S4x100_01_n_01_0_wf).resultIdx? p (pairIdx 0#32 0#32)
        = some (ix2 a j : S8x104.Idx) := by
      rintro ⟨p, hp⟩
      obtain ⟨p0, p1, rfl⟩ : ∃ (p0 : Fin 4) (p1 : Fin 100), p = (ix2 p0 p1 : S4x100.Idx) := ⟨p 0, p 1, eq_ix2 p⟩
      obtain ⟨h0, h1⟩ := (lands p0 p1).mp hp
      have := p0.isLt
      have := p1.isLt
      omega
    refine (LibScatterAt.scatter_apply (LibScatterSet.win2 _) _ _ _ _ 0 (fun p hp => absurd ⟨p, hp⟩ hno)).trans ?_
    rw [if_neg hno, zeros_apply]

/-- After the second scatter: the last row's entries down column 100 as well. -/
def stage2 : S8x104.Idx → EReal :=
  Host.scatter scatter_S8x104_S2_S4_0_1_01_0 (fun _ b => b) (stage1 w2) (pairIdx 0#32 100#32) (lastRow w2)

theorem stage2_apply (a : Fin 8) (j : Fin 104) : stage2 w2 (ix2 a j) = QSpec.w2t w2 a j := by
  have hd : scatter_S8x104_S2_S4_0_1_01_0 = col2 scatter_S8x104_S2_S4_0_1_01_0_wf := rfl
  -- where an update index lands, in coordinates
  have lands : ∀ (p0 : Fin 4),
      (col2 scatter_S8x104_S2_S4_0_1_01_0_wf).resultIdx? (ix1 p0 : S4.Idx) (pairIdx 0#32 100#32)
          = some (ix2 a j : S8x104.Idx) ↔ a.val = p0.val ∧ j.val = 100 := by
    intro p0
    rw [col2_lands_iff, pairIdx_0, pairIdx_1, toInt_zero32, toInt_hundred32]
    show ((a.val : Int) = 0 + (p0.val : Int) ∧ (j.val : Int) = 100) ↔ _
    omega
  unfold stage2 QSpec.w2t
  rw [hd]
  by_cases h : a.val < 4 ∧ j.val = 100
  · rw [if_pos h]
    refine (LibScatterAt.scatter_apply (col2 _) _ _ _ _ (w2 (ix2 (127 : Fin 128) ⟨a.val, by omega⟩)) (fun p hp => ?_)).trans ?_
    · obtain ⟨p0, rfl⟩ : ∃ (p0 : Fin 4), p = (ix1 p0 : S4.Idx) := ⟨p 0, eq_ix1 p⟩
      obtain ⟨h0, h1⟩ := (lands p0).mp hp
      rw [lastRow_apply]
      congr 1
      funext d
      match d with
      | ⟨0, _⟩ => rfl
      | ⟨1, _⟩ => exact Fin.ext h0.symm
    · exact if_pos ⟨ix1 ⟨a.val, h.1⟩, (lands ⟨a.val, h.1⟩).mpr ⟨rfl, h.2⟩⟩
  · rw [if_neg h]
    have hno : ¬ ∃ p : S4.Idx, (col2 scatter_S8x104_S2_S4_0_1_01_0_wf).resultIdx? p (pairIdx 0#32 100#32)
        = some (ix2 a j : S8x104.Idx) := by
      rintro ⟨p, hp⟩
      obtain ⟨p0, rfl⟩ : ∃ (p0 : Fin 4), p = (ix1 p0 : S4.Idx) := ⟨p 0, eq_ix1 p⟩
      obtain ⟨h0, h1⟩ := (lands p0).mp hp
      have := p0.isLt
      exact h ⟨by omega, h1⟩
    refine (LibScatterAt.scatter_apply (col2 _) _ _ _ _ 0 (fun p hp => absurd ⟨p, hp⟩ hno)).trans ?_
    rw [if_neg hno, stage1_apply]

end Stages

/-- The second-layer matrix the region finds: the 8 × 104 matrix of the lane-major network. -/
theorem v23_apply (a : Fin 8) (j : Fin 104) :
    (Gen.V m c main_v23 : S8x104.Idx → EReal) (ix2 a j) = QSpec.w2t (m ((c : Thread nD τ).loc main_arg2)) a j := by
  have e : (Gen.V m c main_v23 : S8x104.Idx → EReal)
      = truncf (F := Ideal) .bf16
          (Host.scatter scatter_S8x104_S2_S4_0_1_01_0 (fun _ b => b)
            (Host.scatter scatter_S8x104_S2_S4x100_01_n_01_0 (fun _ b => b)
              (broadcastInDim S8x104 ![] bcast_S_S8x104 (constant (F := Ideal) S_ .f32 0x00000000#32))
              (pairIdx 0#32 0#32)
              (transpose S4x100 [1, 0]
                (extractStridedSlice S100x4 ![0, 0] (m ((c : Thread nD τ).loc main_arg2) : S128x128.Idx → EReal) slices_S128x128_S100x4_0_0)
                transposes_S100x4_S4x100_1_0))
            (pairIdx 0#32 100#32)
            (shapeCast S4
              (extractStridedSlice S1x4 ![127, 0] (m ((c : Thread nD τ).loc main_arg2) : S128x128.Idx → EReal) slices_S128x128_S1x4_127_0)
              shapeCasts_S1x4_S4))
          bitsLt_bf16_f32 := by
    show StableHlo.after Gen.hostOps0 (fun b => m (c, b)) (Proc.devRef .tc main_v23) = _
    after_results
    rfl
  rw [e, truncf_apply]
  exact stage2_apply _ a j

end Cert.KernelIdeal.HostValue

end
-- ==== Proof.KerHost.lean ====
/-
  What the lane-major program's region finds in its four input arrays, read at an index: the transposed input
  (`v0_apply`), the transposed first-layer block (`v3_apply`), the bias column (`v9_apply`) and the 8 × 104
  second-layer matrix (`v23_apply`).
-/
import proofs.«166155_g2000002516493278_pallasbulk_279_28_alg».proof.Proof.KerHostW1
import proofs.«166155_g2000002516493278_pallasbulk_279_28_alg».proof.Proof.KerHostBias
import proofs.«166155_g2000002516493278_pallasbulk_279_28_alg».proof.Proof.KerHostW2
-- ==== Proof.KerRun.lean ====
/-
  The lane-major program's result as a function of the three argument arrays: the four arrays its region reads are
  host rearrangements of the arguments (the transposed input, the transposed first-layer block, the bias column with a
  one in row 100, the 8 × 104 second-layer matrix), so each entry of the result is `QSpec.laneQ` of the arguments.
-/
import proofs.«166155_g2000002516493278_pallasbulk_279_28_alg».proof.Proof.KerTail
import proofs.«166155_g2000002516493278_pallasbulk_279_28_alg».proof.Proof.KerHost
import proofs.«166155_g2000002516493278_pallasbulk_279_28_alg».proof.Proof.QSpec

noncomputable section

open scoped BigOperators
open Idealize.ShloMosaic Idealize.ShloMosaic.TcCoe Idealize.ShloMosaic.ValueIdx Idealize.SL.Sem

namespace Cert.KernelIdeal.LaneRun

open Cert.KernelIdeal Cert.KernelIdeal.Gen

variable (m : (ℓ : Loc nD τ sig) → Buf (Elt Ideal) ℓ) (ρ : Dev nD → PrngReg)

/-- An entry of the region's result, in the arguments. -/
theorem entry_eq (c : Dev nD) (a : Fin 4) (b : Fin 524288) :
    LaneBlocks.laneEntry (V m c main_v0) (V m c main_v3) (V m c main_v9) (V m c main_v23) a b
      = QSpec.laneQ (m ((c : Thread nD τ).loc main_arg0)) (m ((c : Thread nD τ).loc main_arg1))
          (m ((c : Thread nD τ).loc main_arg2)) b a := by
  unfold LaneBlocks.laneEntry QSpec.laneQ QSpec.laneHidden
  refine Finset.sum_congr rfl fun j _ => ?_
  rw [HostValue.v23_apply m c, HostValue.v9_apply m c]
  refine congrArg (fun s => QSpec.w2t (m ((c : Thread nD τ).loc main_arg2)) (⟨a.val, by omega⟩ : Fin 8) j
    * max (s + QSpec.biasCol (m ((c : Thread nD τ).loc main_arg1)) j) 0) ?_
  refine Finset.sum_congr rfl fun k _ => ?_
  rw [HostValue.v3_apply m c, HostValue.v0_apply m c]

/-- The run, read in the arguments. -/
theorem run : θ_run (defs (F := Ideal)) (onTc (τ := τ) (main (F := Ideal))) ⟨m, fun _ => 0, ρ⟩ (fun r => ∀ c : Dev nD,
      r.2.mem ((c.tc : Thread nD τ).loc main_v25)
        = (fun i : S524288x4.Idx => QSpec.laneQ (m ((c.tc : Thread nD τ).loc main_arg0)) (m ((c.tc : Thread nD τ).loc main_arg1))
            (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun i => entry_eq m c (i 1) (i 0)), (h c).2⟩)
    (run_entries m ρ)

end Cert.KernelIdeal.LaneRun

end
-- ==== Proof.RefBody.lean ====
/-
  One block of the batch-major network. The body multiplies a block of 256 augmented input rows by the
  16 × 128 first-layer matrix, clamps every entry at zero, and multiplies by the 128 × 128 second-layer matrix.
  Both products accumulate into a zero block, so entry (r, q) of what the body stores is
  ∑ j, max (∑ k, x0[r, k] · x1[k, j]) 0 · x2[j, q], on the extended reals.
-/
import proofs.«166155_g2000002516493278_pallasbulk_279_28_alg».proof.Proof.Gen.ReferenceIdeal.Skeleton
import proofs.«166155_g2000002516493278_pallasbulk_279_28_alg».proof.Proof.LibMatmulNN
import Idealize.ShloMosaic.Lib.Pipeline.Value
import Idealize.ShloMosaic.Lib.ValueIdx

noncomputable section

open scoped BigOperators

namespace Cert.ReferenceIdeal.RowValue

open Idealize.ShloMosaic Idealize.ShloMosaic.ValueIdx Cert.ReferenceIdeal

/-- The hidden layer of the block: entry (r, j) of the clamped first product. -/
theorem hidden_apply (x0 : FVec Ideal S256x16 .f32) (x1 : FVec Ideal S16x128 .f32) (r : Fin 256) (j : Fin 128) :
    maximumf (matmul (F := Ideal) dot_S256x16_S16x128_S256x128_1_0_0_1_n_n none x0 x1 (constant (F := Ideal) S256x128 .f32 0x00000000#32))
        (broadcast S256x128 (Scalar.ofBits (F := Ideal) .f32 0x00000000#32)) (ix2 r j)
      = max (∑ k : Fin 16, x0 (ix2 r k) * x1 (ix2 k j)) 0 := by
  rw [maximumf_apply, broadcast_apply]
  refine congrArg₂ max ?_ Ideal.ofBits_zero_f32
  exact LibMatmulNN.matmul_zero_apply 256 16 128 none x0 x1 r j

/-- Entry (r, q) of the block the body stores. -/
theorem body_apply (x0 : Vec Ideal S256x16 .f32) (x1 : Vec Ideal S16x128 .f32) (x2 : Vec Ideal S128x128 .f32)
    (r : Fin 256) (q : Fin 128) :
    Gen.k0_pay1 (F := Ideal) x0 x1 x2 (ix2 r q)
      = ∑ j : Fin 128, max (∑ k : Fin 16, x0 (ix2 r k) * x1 (ix2 k j)) 0 * x2 (ix2 j q) := by
  unfold Gen.k0_pay1
  refine (LibMatmulNN.matmul_zero_apply 256 128 128 none _ x2 r q).trans ?_
  refine Finset.sum_congr rfl fun j _ => ?_
  refine congrArg (· * x2 (ix2 j q)) ?_
  rw [shapeCast_self]
  exact hidden_apply x0 x1 r j

end Cert.ReferenceIdeal.RowValue

end
-- ==== Proof.RefNet.lean ====
/-
  The wide output of the region as one function. `net xa w1 w2 b q` is the network at input row b and output
  column q over an already augmented input array `xa`: ∑ j, max (∑ k, xa[b, k] · w1[k, j]) 0 · w2[j, q]. A block's
  payload at (r, q) is this at row b whenever the input block's row r is row b of `xa` and the weight blocks are
  the weight arrays.
-/
import proofs.«166155_g2000002516493278_pallasbulk_279_28_alg».proof.Proof.RefBody

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen
open Idealize.ShloMosaic.Pipeline (Dat)

/-- The network at input row `b` and column `q` of the wide output, over an already augmented input array. -/
def net (xa : S524288x16.Idx → EReal) (w1 : S16x128.Idx → EReal) (w2 : S128x128.Idx → EReal)
    (b : Fin 524288) (q : Fin 128) : EReal :=
  ∑ j : Fin 128, max (∑ k : Fin 16, xa (ix2 b k) * w1 (ix2 k j)) 0 * w2 (ix2 j q)

/-- The wide output array as one function of its index. -/
def netArr (xa : S524288x16.Idx → EReal) (w1 : S16x128.Idx → EReal) (w2 : S128x128.Idx → EReal) :
    S524288x128.Idx → EReal := fun i => net xa w1 w2 (i 0) (i 1)

theorem zero_offsets : (![0, 0] : Fin 2 → Nat) = fun _ => 0 := funext fun a => by fin_cases a <;> rfl

/-- A block's payload at (r, q) is the network at row `b`, when the input block's row r is the array's row `b` and
    the two weight blocks are the weight arrays. -/
theorem payload_net (xa : S524288x16.Idx → EReal) (w1 : S16x128.Idx → EReal) (w2 : S128x128.Idx → EReal)
    (x0 : Vec Ideal S256x16 .f32) (x1 : Vec Ideal S16x128 .f32) (x2 : Vec Ideal S128x128 .f32)
    (r : Fin 256) (q : Fin 128) (b : Fin 524288)
    (h0 : ∀ k : Fin 16, x0 (ix2 r k) = xa (ix2 b k))
    (h1 : ∀ (k : Fin 16) (j : Fin 128), x1 (ix2 k j) = w1 (ix2 k j))
    (h2 : ∀ j : Fin 128, x2 (ix2 j q) = w2 (ix2 j q)) :
    k0_pay1 (F := Ideal) x0 x1 x2 (ix2 r q) = net xa w1 w2 b q := by
  rw [body_apply]
  unfold net
  refine Finset.sum_congr rfl fun j _ => ?_
  rw [h2 j]
  refine congrArg (fun s => max s 0 * w2 (ix2 j q)) ?_
  refine Finset.sum_congr rfl fun k _ => ?_
  rw [h0 k, h1 k j]

end Cert.ReferenceIdeal.RowValue

end
-- ==== Proof.RefIdx.lean ====
/-
  The region's index maps over its 2048 grid points, decided: the input and output blocks of point t are block t
  along the rows (block column 0), and each weight matrix is one block, at block index (0, 0).
-/
import proofs.«166155_g2000002516493278_pallasbulk_279_28_alg».proof.Proof.Gen.ReferenceIdeal.Points
import Idealize.ShloMosaic.Lib.ValueIdx

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen
open Idealize.ShloMosaic.Pipeline (Dat)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

end Cert.ReferenceIdeal.RowValue

end
-- ==== Proof.RefBlockRead.lean ====
/-
  The region's input blocks as parts of their arrays, for any contents `A` of the array: row r of the input block at
  point t is row 256·t + r of the array, and each weight block is its whole array.
-/
import proofs.«166155_g2000002516493278_pallasbulk_279_28_alg».proof.Proof.Gen.ReferenceIdeal.Frame
import proofs.«166155_g2000002516493278_pallasbulk_279_28_alg».proof.Proof.RefIdx
import Idealize.ShloMosaic.Lib.Pipeline.Value

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen
open Idealize.ShloMosaic.Pipeline (Dat)

/-- Row r of the input block at point t is row 256·t + r of the array. -/
theorem blk0_read (A : S524288x16.Idx → EReal) (t : Fin cfg0.N) (r : Fin 256) (k : Fin 16) (b : Fin 524288)
    (hb : b.val = t.val * 256 + r.val) :
    ((cfg0.win 0).blk t).view.read (Elt Ideal) A (ix2 r k) = A (ix2 b k) := by
  obtain ⟨e00, e01, -⟩ := idx_facts t
  rw [View.read_apply]
  refine congrArg A ?_
  funext a; apply Fin.ext
  match a with
  | ⟨0, _⟩ => show win0_0.index t (0 : Fin 2) * 256 + 1 * r.val = b.val; rw [e00, hb]; omega
  | ⟨1, _⟩ => show win0_0.index t (1 : Fin 2) * 16 + 1 * k.val = k.val; rw [e01]; omega

/-- The first weight block at any point is the first weight array. -/
theorem blk1_read (A : S16x128.Idx → EReal) (t : Fin cfg0.N) (k : Fin 16) (j : Fin 128) :
    ((cfg0.win 1).blk t).view.read (Elt Ideal) A (ix2 k j) = A (ix2 k j) := by
  obtain ⟨-, -, e10, e11, -⟩ := idx_facts t
  rw [View.read_apply]
  refine congrArg A ?_
  funext a; apply Fin.ext
  match a with
  | ⟨0, _⟩ => show win0_1.index t (0 : Fin 2) * 16 + 1 * k.val = k.val; rw [e10]; omega
  | ⟨1, _⟩ => show win0_1.index t (1 : Fin 2) * 128 + 1 * j.val = j.val; rw [e11]; omega

/-- The second weight block at any point is the second weight array. -/
theorem blk2_read (A : S128x128.Idx → EReal) (t : Fin cfg0.N) (j : Fin 128) (q : Fin 128) :
    ((cfg0.win 2).blk t).view.read (Elt Ideal) A (ix2 j q) = A (ix2 j q) := by
  obtain ⟨-, -, -, -, e20, e21, -⟩ := idx_facts t
  rw [View.read_apply]
  refine congrArg A ?_
  funext a; apply Fin.ext
  match a with
  | ⟨0, _⟩ => show win0_2.index t (0 : Fin 2) * 128 + 1 * j.val = j.val; rw [e20]; omega
  | ⟨1, _⟩ => show win0_2.index t (1 : Fin 2) * 128 + 1 * q.val = q.val; rw [e21]; omega

/-- Where the element (r, q) of the output block at point t sits in the wide output. -/
theorem blk3_emb (t : Fin cfg0.N) (r : Fin 256) (q : Fin 128) (b : Fin 524288) (hb : b.val = t.val * 256 + r.val) :
    ((cfg0.win 3).blk t).view.emb (ix2 r q) = (ix2 b q : S524288x128.Idx) := by
  obtain ⟨-, -, -, -, -, -, e30, e31⟩ := idx_facts t
  funext a; apply Fin.ext
  match a with
  | ⟨0, _⟩ => show win0_3.index t (0 : Fin 2) * 256 + 1 * r.val = b.val; rw [e30, hb]; omega
  | ⟨1, _⟩ => show win0_3.index t (1 : Fin 2) * 128 + 1 * q.val = q.val; rw [e31]; omega

/-- An index of the wide output is in point t's block iff each coordinate is in the block's range. -/
theorem mem_blk (t : Fin cfg0.N) (i : S524288x128.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v6).slice (win0_3.rect t)).set ↔ _
  rw [View.set_slice_whole, Rect.mem_set_unit]
  exact Iff.rfl

/-- Every index of the wide output is in some point's block: row b in block b / 256. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 2048 := N_0
  have hlt : (i 0).val / 256 < cfg0.N := by rw [hN]; omega
  obtain ⟨-, -, -, -, -, -, e30, e31⟩ := idx_facts ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, hlt⟩ (1 : Fin 2) * 128 ≤ (i 1).val
      ∧ (i 1).val < win0_3.index ⟨(i 0).val / 256, hlt⟩ (1 : Fin 2) * 128 + 128
    rw [e31]; omega

end Cert.ReferenceIdeal.RowValue

end
-- ==== Proof.RefBlocks.lean ====
/-
  From blocks to the array. Grid point t of the region works on rows 256·t … 256·t + 255: it reads that block of
  the augmented input and the two weight matrices whole, and writes back the block of the wide [524288, 128] output
  holding, at (r, q), the network of input row 256·t + r at output column q. The 2048 blocks tile the output, so the
  output array ends as ONE function (`netArr`) of the three arrays the region finds.
-/
import proofs.«166155_g2000002516493278_pallasbulk_279_28_alg».proof.Proof.RefNet
import proofs.«166155_g2000002516493278_pallasbulk_279_28_alg».proof.Proof.RefBlockRead

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen
open Idealize.ShloMosaic.Pipeline (Dat)

/-- What a point computes from the blocks of ANY three arrays is the block of `netArr` of those arrays. -/
theorem block_eq (A0 : S524288x16.Idx → EReal) (A1 : S16x128.Idx → EReal) (A2 : S128x128.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (netArr A0 A1 A2) := by
  unfold out0_3
  rw [View.canon_unit_zero zero_offsets]
  simp only [View.ld_unit_zero (S := S256x16) zero_offsets, View.ld_unit_zero (S := S16x128) zero_offsets,
    View.ld_unit_zero (S := S128x128) zero_offsets]
  have hN : cfg0.N = 2048 := N_0
  have ht : t.val < 2048 := hN ▸ t.isLt
  funext y
  obtain ⟨r, q, rfl⟩ : ∃ (r : Fin 256) (q : Fin 128), y = ix2 r q := ⟨y 0, y 1, eq_ix2 y⟩
  have hr : r.val < 256 := r.isLt
  rw [View.read_apply, blk3_emb t r q ⟨t.val * 256 + r.val, by omega⟩ rfl]
  show k0_pay1 (F := Ideal) (((cfg0.win 0).blk t).view.read (Elt Ideal) A0) (((cfg0.win 1).blk t).view.read (Elt Ideal) A1)
      (((cfg0.win 2).blk t).view.read (Elt Ideal) A2) (ix2 r q)
    = net A0 A1 A2 ⟨t.val * 256 + r.val, by omega⟩ q
  exact payload_net A0 A1 A2 (((cfg0.win 0).blk t).view.read (Elt Ideal) A0) (((cfg0.win 1).blk t).view.read (Elt Ideal) A1)
    (((cfg0.win 2).blk t).view.read (Elt Ideal) A2) r q ⟨t.val * 256 + r.val, by omega⟩
    (fun k => blk0_read A0 t r k _ rfl) (fun k j => blk1_read A1 t k j) (fun j => blk2_read A2 t j q)

variable (m : (ℓ : Loc nD τ sig) → Buf (Elt Ideal) ℓ)

/-- WHAT POINT t WRITES BACK is block t of `netArr` of the arrays the region finds. -/
theorem flushed_eq (c : Dev nD) (t : Fin cfg0.N) :
    (dats m 0 c).flushed 3 t
      = ((cfg0.win 3).blk t).view.read (Elt Ideal) (netArr (V m c main_v5) (V m c main_arg1) (V m c main_arg2)) := by
  show (cfg0.win 3).cut (grid0.coords t) ((dats m 0 c).after 3 t) = _
  rw [after0_3]
  exact block_eq (V m c main_v5) (V m c main_arg1) (V m c main_arg2) t

/-- THE WIDE OUTPUT after the region: the network of every row, over the arrays the region finds. -/
theorem final (c : Dev nD) :
    (dats m 0 c).arrAt 3 cfg0.N = netArr (V m c main_v5) (V m c main_arg1) (V m c main_arg2) :=
  (dats m 0 c).arrAt_eq_of_cover 3 (netArr (V m c main_v5) (V m c main_arg1) (V m c main_arg2))
    (fun t _ => flushed_eq m c t) cover

end Cert.ReferenceIdeal.RowValue

end
-- ==== Proof.LibScatterCol.lean ====
/-
  Where an update index lands, for the two scatters that fill columns of a two-axis array from a start column read
  off a one-element index tensor.

  `colWindow`: `operand.at[:, c0 : c0 + c].set(update)` with the update of shape [R, c]. Both operand axes are window
  axes; the one start component goes to the column axis. Update index (p, q) lands on (p, c0 + q).

  `colInsert`: `operand.at[:, c0].set(update)` with the update of shape [R]. The row axis is the one window axis, the
  column axis is inserted; the one start component goes to the column axis. Update index p lands on (p, c0).
-/
import proofs.«166155_g2000002516493278_pallasbulk_279_28_alg».proof.Proof.LibScatterAt

noncomputable section

namespace LibScatterCol

open Idealize.ShloMosaic Idealize.ShloMosaic.ValueIdx

variable {R C c w : Nat}

/-! ## A block of columns -/

abbrev colWindow (h : ScatterDims.WF (⟨2, ![R, C]⟩ : Shape) ⟨1, ![1]⟩ ⟨2, ![R, c]⟩ [0, 1] [] [1] 0) :
    ScatterDims (⟨2, ![R, C]⟩ : Shape) ⟨1, ![1]⟩ ⟨2, ![R, c]⟩ :=
  { updateWindowDims := [0, 1], insertedWindowDims := [], scatterDimsToOperandDims := [1], indexVectorDim := 0, wf := h }

section ColWindow

variable (h : ScatterDims.WF (⟨2, ![R, C]⟩ : Shape) ⟨1, ![1]⟩ ⟨2, ![R, c]⟩ [0, 1] [] [1] 0)

theorem colWindow_siIdx (j : (⟨2, ![R, c]⟩ : Shape).Idx) (hc) : (colWindow h).siIdx j ⟨0, hc⟩ = ix1 (0 : Fin 1) := by
  funext b
  match b with
  | ⟨0, _⟩ => unfold ScatterDims.siIdx; rw [dif_pos rfl]; rfl

theorem colWindow_start0 (idx : IVec ⟨1, ![1]⟩ w) (j : (⟨2, ![R, c]⟩ : Shape).Idx) : (colWindow h).start j idx 0 = 0 := by
  unfold ScatterDims.start
  rw [dif_neg (show ¬ (0 : Fin 2) ∈ ([1] : List (Fin 2)) from by decide)]

theorem colWindow_start1 (idx : IVec ⟨1, ![1]⟩ w) (j : (⟨2, ![R, c]⟩ : Shape).Idx) :
    (colWindow h).start j idx 1 = (idx (ix1 (0 : Fin 1))).toInt := by
  unfold ScatterDims.start
  rw [dif_pos (show (1 : Fin 2) ∈ ([1] : List (Fin 2)) from List.mem_cons_self)]
  exact congrArg (fun k => (idx k).toInt) (colWindow_siIdx h j _)

theorem colWindow_window0 (j : (⟨2, ![R, c]⟩ : Shape).Idx) : (colWindow h).window j 0 = (j 0).val := by
  unfold ScatterDims.window
  have hm : (0 : Fin (⟨2, ![R, C]⟩ : Shape).rank) ∈ (colWindow h).sKept :=
    show (0 : Fin 2) ∈ ([0, 1] : List (Fin 2)) from List.mem_cons_self
  rw [dif_pos hm]
  rfl

theorem colWindow_window1 (j : (⟨2, ![R, c]⟩ : Shape).Idx) : (colWindow h).window j 1 = (j 1).val := by
  unfold ScatterDims.window
  have hm : (1 : Fin (⟨2, ![R, C]⟩ : Shape).rank) ∈ (colWindow h).sKept :=
    show (1 : Fin 2) ∈ ([0, 1] : List (Fin 2)) from List.mem_cons_of_mem _ List.mem_cons_self
  rw [dif_pos hm]
  rfl

/-- Update index (p, q) lands on operand index `i` exactly when `i` is (p, start + q). -/
theorem colWindow_lands_iff (idx : IVec ⟨1, ![1]⟩ w) (j : (⟨2, ![R, c]⟩ : Shape).Idx) (i : (⟨2, ![R, C]⟩ : Shape).Idx) :
    (colWindow h).resultIdx? j idx = some i ↔
      (i 0).val = (j 0).val ∧ ((i 1).val : Int) = (idx (ix1 (0 : Fin 1))).toInt + (j 1).val := by
  rw [LibScatterAt.resultIdx?_eq_some_iff]
  constructor
  · intro hall
    have h0 := hall 0
    have h1 := hall 1
    rw [colWindow_start0, colWindow_window0] at h0
    rw [colWindow_start1, colWindow_window1] at h1
    exact ⟨by omega, h1⟩
  · rintro ⟨h0, h1⟩ a
    match a with
    | ⟨0, _⟩ =>
      show ((i 0).val : Int) = (colWindow h).start j idx 0 + ((colWindow h).window j 0 : Int)
      rw [colWindow_start0, colWindow_window0]; omega
    | ⟨1, _⟩ =>
      show ((i 1).val : Int) = (colWindow h).start j idx 1 + ((colWindow h).window j 1 : Int)
      rw [colWindow_start1, colWindow_window1]; exact h1

end ColWindow

/-! ## One column -/

abbrev colInsert (h : ScatterDims.WF (⟨2, ![R, C]⟩ : Shape) ⟨1, ![1]⟩ ⟨1, ![R]⟩ [0] [1] [1] 0) :
    ScatterDims (⟨2, ![R, C]⟩ : Shape) ⟨1, ![1]⟩ ⟨1, ![R]⟩ :=
  { updateWindowDims := [0], insertedWindowDims := [1], scatterDimsToOperandDims := [1], indexVectorDim := 0, wf := h }

section ColInsert

variable (h : ScatterDims.WF (⟨2, ![R, C]⟩ : Shape) ⟨1, ![1]⟩ ⟨1, ![R]⟩ [0] [1] [1] 0)

theorem colInsert_siIdx (j : (⟨1, ![R]⟩ : Shape).Idx) (hc) : (colInsert (C := C) h).siIdx j ⟨0, hc⟩ = ix1 (0 : Fin 1) := by
  funext b
  match b with
  | ⟨0, _⟩ => unfold ScatterDims.siIdx; rw [dif_pos rfl]; rfl

theorem colInsert_start0 (idx : IVec ⟨1, ![1]⟩ w) (j : (⟨1, ![R]⟩ : Shape).Idx) : (colInsert (C := C) h).start j idx 0 = 0 := by
  unfold ScatterDims.start
  rw [dif_neg (show ¬ (0 : Fin 2) ∈ ([1] : List (Fin 2)) from by decide)]

theorem colInsert_start1 (idx : IVec ⟨1, ![1]⟩ w) (j : (⟨1, ![R]⟩ : Shape).Idx) :
    (colInsert (C := C) h).start j idx 1 = (idx (ix1 (0 : Fin 1))).toInt := by
  unfold ScatterDims.start
  rw [dif_pos (show (1 : Fin 2) ∈ ([1] : List (Fin 2)) from List.mem_cons_self)]
  exact congrArg (fun k => (idx k).toInt) (colInsert_siIdx h j _)

theorem colInsert_window0 (j : (⟨1, ![R]⟩ : Shape).Idx) : (colInsert (C := C) h).window j 0 = (j 0).val := by
  unfold ScatterDims.window
  have hm : (0 : Fin (⟨2, ![R, C]⟩ : Shape).rank) ∈ (colInsert (C := C) h).sKept :=
    show (0 : Fin 2) ∈ ([0] : List (Fin 2)) from List.mem_cons_self
  rw [dif_pos hm]
  rfl

theorem colInsert_window1 (j : (⟨1, ![R]⟩ : Shape).Idx) : (colInsert (C := C) h).window j 1 = 0 := by
  unfold ScatterDims.window
  have hm : ¬ (1 : Fin (⟨2, ![R, C]⟩ : Shape).rank) ∈ (colInsert (C := C) h).sKept :=
    show ¬ (1 : Fin 2) ∈ ([0] : List (Fin 2)) from by decide
  rw [dif_neg hm]

/-- Update index p lands on operand index `i` exactly when `i` is (p, start). -/
theorem colInsert_lands_iff (idx : IVec ⟨1, ![1]⟩ w) (j : (⟨1, ![R]⟩ : Shape).Idx) (i : (⟨2, ![R, C]⟩ : Shape).Idx) :
    (colInsert h).resultIdx? j idx = some i ↔
      (i 0).val = (j 0).val ∧ ((i 1).val : Int) = (idx (ix1 (0 : Fin 1))).toInt := by
  rw [LibScatterAt.resultIdx?_eq_some_iff]
  constructor
  · intro hall
    have h0 := hall 0
    have h1 := hall 1
    rw [colInsert_start0, colInsert_window0] at h0
    rw [colInsert_start1, colInsert_window1] at h1
    exact ⟨by omega, by omega⟩
  · rintro ⟨h0, h1⟩ a
    match a with
    | ⟨0, _⟩ =>
      show ((i 0).val : Int) = (colInsert h).start j idx 0 + ((colInsert h).window j 0 : Int)
      rw [colInsert_start0, colInsert_window0]; omega
    | ⟨1, _⟩ =>
      show ((i 1).val : Int) = (colInsert h).start j idx 1 + ((colInsert h).window j 1 : Int)
      rw [colInsert_start1, colInsert_window1]; omega

end ColInsert

end LibScatterCol

end
-- ==== Proof.LibScatterColRead.lean ====
/-
  The two column scatters read at an operand index (p, k), for any operand, index tensor and update, given the start
  column `c0` the index tensor holds.

  A block of columns: at most one update index lands on (p, k), namely (p, k - c0), and only when
  c0 ≤ k < c0 + c; the result there is the update's element, elsewhere the operand's.

  One column: update index p lands on (p, c0); the result at (p, k) is the update's element p when k = c0, and the
  operand's element otherwise.
-/
import proofs.«166155_g2000002516493278_pallasbulk_279_28_alg».proof.Proof.LibScatterCol

noncomputable section

namespace LibScatterCol

open Idealize.ShloMosaic Idealize.ShloMosaic.ValueIdx

variable {α : Type} {R C c w : Nat}

theorem colWindow_scatter_apply (h : ScatterDims.WF (⟨2, ![R, C]⟩ : Shape) ⟨1, ![1]⟩ ⟨2, ![R, c]⟩ [0, 1] [] [1] 0)
    (x : (⟨2, ![R, C]⟩ : Shape).Idx → α) (idx : IVec ⟨1, ![1]⟩ w) (upd : (⟨2, ![R, c]⟩ : Shape).Idx → α)
    (c0 : Nat) (hidx : (idx (ix1 (0 : Fin 1))).toInt = (c0 : Int)) (p : Fin R) (k : Fin C) :
    Host.scatter (colWindow h) (fun _ b => b) x idx upd (ix2 p k)
      = if hk : c0 ≤ k.val ∧ k.val < c0 + c then upd (ix2 p ⟨k.val - c0, by omega⟩) else x (ix2 p k) := by
  by_cases hk : c0 ≤ k.val ∧ k.val < c0 + c
  · rw [dif_pos hk]
    have hv : ∀ j, (colWindow h).resultIdx? j idx = some (ix2 p k) → upd j = upd (ix2 p ⟨k.val - c0, by omega⟩) := by
      intro j hj
      rw [colWindow_lands_iff, hidx] at hj
      obtain ⟨h0, h1⟩ := hj
      have h0' : p.val = (j 0).val := h0
      have h1' : (k.val : Int) = (c0 : Int) + ((j 1).val : Int) := h1
      refine congrArg upd ?_
      rw [eq_ix2 j]
      refine congrArg₂ ix2 (Fin.ext h0'.symm) (Fin.ext ?_)
      show (j 1).val = k.val - c0
      omega
    rw [LibScatterAt.scatter_apply (colWindow h) x idx upd (ix2 p k) _ hv]
    refine if_pos ⟨ix2 p ⟨k.val - c0, by omega⟩, ?_⟩
    rw [colWindow_lands_iff, hidx]
    refine ⟨rfl, ?_⟩
    show (k.val : Int) = (c0 : Int) + ((k.val - c0 : Nat) : Int)
    omega
  · rw [dif_neg hk]
    have hno : ∀ j, ¬ (colWindow h).resultIdx? j idx = some (ix2 p k) := by
      intro j hj
      rw [colWindow_lands_iff, hidx] at hj
      obtain ⟨-, h1⟩ := hj
      have h1' : (k.val : Int) = (c0 : Int) + ((j 1).val : Int) := h1
      have hj1 : (j 1).val < c := (j 1).isLt
      omega
    rw [LibScatterAt.scatter_apply (colWindow h) x idx upd (ix2 p k) (x (ix2 p k)) (fun j hj => absurd hj (hno j))]
    exact if_neg fun ⟨j, hj⟩ => hno j hj

theorem colInsert_scatter_apply (h : ScatterDims.WF (⟨2, ![R, C]⟩ : Shape) ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (c0 : Nat) (hidx : (idx (ix1 (0 : Fin 1))).toInt = (c0 : Int)) (p : Fin R) (k : Fin C) :
    Host.scatter (colInsert h) (fun _ b => b) x idx upd (ix2 p k)
      = if k.val = c0 then upd (ix1 p) else x (ix2 p k) := by
  by_cases hk : k.val = c0
  · rw [if_pos hk]
    have hv : ∀ j, (colInsert h).resultIdx? j idx = some (ix2 p k) → upd j = upd (ix1 p) := by
      intro j hj
      rw [colInsert_lands_iff, hidx] at hj
      obtain ⟨h0, -⟩ := hj
      have h0' : p.val = (j 0).val := h0
      refine congrArg upd ?_
      rw [eq_ix1 j]
      exact congrArg ix1 (Fin.ext h0'.symm)
    rw [LibScatterAt.scatter_apply (colInsert h) x idx upd (ix2 p k) _ hv]
    refine if_pos ⟨ix1 p, ?_⟩
    rw [colInsert_lands_iff, hidx]
    refine ⟨rfl, ?_⟩
    show (k.val : Int) = (c0 : Int)
    omega
  · rw [if_neg hk]
    have hno : ∀ j, ¬ (colInsert h).resultIdx? j idx = some (ix2 p k) := by
      intro j hj
      rw [colInsert_lands_iff, hidx] at hj
      obtain ⟨-, h1⟩ := hj
      have h1' : (k.val : Int) = (c0 : Int) := h1
      omega
    rw [LibScatterAt.scatter_apply (colInsert h) x idx upd (ix2 p k) (x (ix2 p k)) (fun j hj => absurd hj (hno j))]
    exact if_neg fun ⟨j, hj⟩ => hno j hj

end LibScatterCol

end
-- ==== Proof.RefHost.lean ====
/-
  The augmented input. Before the region the host builds, from the [524288, 12] input x, the [524288, 16] array
  whose row b is (x[b, 0], …, x[b, 11], 1, 0, 0, 0): a zero array, the input scattered into columns 0 … 11, then a
  vector of ones scattered into column 12. Read at (b, k) this is `QSpec.xaug x b k`.
-/
import proofs.«166155_g2000002516493278_pallasbulk_279_28_alg».proof.Proof.Gen.ReferenceIdeal.Frame
import proofs.«166155_g2000002516493278_pallasbulk_279_28_alg».proof.Proof.LibScatterColRead
import proofs.«166155_g2000002516493278_pallasbulk_279_28_alg».proof.Proof.QSpec
import Idealize.ShloMosaic.Lib.Pipeline.Value
import Idealize.ShloMosaic.Lib.ValueLayout
import Idealize.ShloMosaic.PureOps.Ideal.Laws

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen LibScatterCol
open Idealize.ShloMosaic.Pipeline (Dat)

/-- The zero array the scatters start from. -/
abbrev zeros16 : S524288x16.Idx → EReal :=
  broadcastInDim S524288x16 ![] Facts₀.bcast_S_S524288x16 (constant (F := Ideal) S_ .f32 0x00000000#32)

/-- A one-element index tensor holding the start column `v`. -/
abbrev startCol (v : BitVec 32) : IVec S1 32 := broadcastInDim S1 ![] Facts₀.bcast_S_S1 (constantI S_ 32 v)

/-- The vector of ones. -/
abbrev onesCol : S524288.Idx → EReal :=
  broadcastInDim S524288 ![] Facts₀.bcast_S_S524288 (constant (F := Ideal) S_ .f32 0x3F800000#32)

theorem zeros16_apply (i : S524288x16.Idx) : zeros16 i = 0 := by
  unfold zeros16
  rw [broadcastInDim_apply (![] : Fin 0 → Fin S524288x16.rank) Facts₀.bcast_S_S524288x16 _ i ix0 (fun a => a.elim0),
    constant_apply, Ideal.ofBits_zero_f32]

theorem onesCol_apply (i : S524288.Idx) : onesCol i = QSpec.one := by
  unfold onesCol
  rw [broadcastInDim_apply (![] : Fin 0 → Fin S524288.rank) Facts₀.bcast_S_S524288 _ i ix0 (fun a => a.elim0),
    constant_apply]

theorem startCol_apply (v : BitVec 32) (i : S1.Idx) : startCol v i = v := by
  unfold startCol
  rw [broadcastInDim_apply (![] : Fin 0 → Fin S1.rank) Facts₀.bcast_S_S1 _ i ix0 (fun a => a.elim0), constantI_apply]

theorem startCol_zero : (startCol 0#32 (ix1 (0 : Fin 1))).toInt = ((0 : Nat) : Int) := by
  rw [startCol_apply]; decide

theorem startCol_twelve : (startCol 12#32 (ix1 (0 : Fin 1))).toInt = ((12 : Nat) : Int) := by
  rw [startCol_apply]; decide

variable (m : (ℓ : Loc nD τ sig) → Buf (Elt Ideal) ℓ)

/-- The augmented input as the region finds it: the host's two scatters over the zero array. -/
theorem V_v5_eq (c : Dev nD) : (V m c main_v5 : S524288x16.Idx → EReal) =
    Host.scatter scatter_S524288x16_S1_S524288_0_1_1_0 (fun _ b => b)
      (Host.scatter scatter_S524288x16_S1_S524288x12_01_n_1_0 (fun _ b => b) zeros16 (startCol 0#32)
        (m ((c : Thread nD τ).loc main_arg0)))
      (startCol 12#32) onesCol := by
  show StableHlo.after hostOps0 (fun b => m (c, b)) (Proc.devRef .tc main_v5) = _
  after_results

/-- THE AUGMENTED INPUT at (b, k). -/
theorem xaug_read (c : Dev nD) (b : Fin 524288) (k : Fin 16) :
    (V m c main_v5 : S524288x16.Idx → EReal) (ix2 b k) = QSpec.xaug (m ((c : Thread nD τ).loc main_arg0)) b k := by
  refine (congrFun (V_v5_eq m c) (ix2 b k)).trans ?_
  refine (colInsert_scatter_apply (R := 524288) (C := 16) Facts₀.scatter_S524288x16_S1_S524288_0_1_1_0_wf
    (Host.scatter scatter_S524288x16_S1_S524288x12_01_n_1_0 (fun _ b => b) zeros16 (startCol 0#32)
      (m ((c : Thread nD τ).loc main_arg0))) (startCol 12#32) onesCol 12 startCol_twelve b k).trans ?_
  unfold QSpec.xaug
  by_cases h12 : k.val = 12
  · rw [if_pos h12, if_pos h12]
    exact onesCol_apply _
  · rw [if_neg h12, if_neg h12]
    refine (colWindow_scatter_apply (R := 524288) (C := 16) (c := 12) Facts₀.scatter_S524288x16_S1_S524288x12_01_n_1_0_wf
      zeros16 (startCol 0#32) (m ((c : Thread nD τ).loc main_arg0)) 0 startCol_zero b k).trans ?_
    by_cases hlt : k.val < 12
    · rw [dif_pos ⟨Nat.zero_le _, by omega⟩, dif_pos hlt]
      exact congrArg (m ((c : Thread nD τ).loc main_arg0)) (congrArg (ix2 b) (Fin.ext (Nat.sub_zero _)))
    · rw [dif_neg (by omega), dif_neg hlt]
      exact zeros16_apply _

end Cert.ReferenceIdeal.RowValue

end
-- ==== Proof.RefRun.lean ====
/-
  The run of the batch-major program, read. After the region the host keeps columns 0 … 3 of the wide output; with
  the region's output the network of every row over the augmented input, and the augmented input `QSpec.xaug` of
  the input, entry (b, a) of the result is `QSpec.rowQ x w1 w2 b a`; the three arguments end as they were.
-/
import proofs.«166155_g2000002516493278_pallasbulk_279_28_alg».proof.Proof.Gen.ReferenceIdeal.Frame
import proofs.«166155_g2000002516493278_pallasbulk_279_28_alg».proof.Proof.RefBlocks
import proofs.«166155_g2000002516493278_pallasbulk_279_28_alg».proof.Proof.RefHost

noncomputable section

open scoped BigOperators

namespace Cert.ReferenceIdeal.RowValue

open Idealize.ShloMosaic Idealize.ShloMosaic.TcCoe Idealize.ShloMosaic.ValueIdx Idealize.SL.Sem
open Cert.ReferenceIdeal Cert.ReferenceIdeal.Gen
open Idealize.ShloMosaic.Pipeline (Dat)

/-- Over an input array that is the augmented input, the network at an output column below four is `rowQ`. -/
theorem net_eq_rowQ (x : QSpec.SX.Idx → EReal) (xa : S524288x16.Idx → EReal) (w1 : S16x128.Idx → EReal)
    (w2 : S128x128.Idx → EReal) (b : Fin 524288) (a : Fin 4) (hx : ∀ k : Fin 16, xa (ix2 b k) = QSpec.xaug x b k) :
    net xa w1 w2 b ⟨a.val, by omega⟩ = QSpec.rowQ x w1 w2 b a := by
  unfold net QSpec.rowQ
  refine Finset.sum_congr rfl fun j _ => ?_
  refine congrArg (fun s => max s 0 * w2 (ix2 j ⟨a.val, by omega⟩)) ?_
  refine Finset.sum_congr rfl fun k _ => ?_
  rw [hx k]

/-- The slice keeping columns 0 … 3, read at (b, a), is the array at (b, a). -/
theorem slice_read (A : S524288x128.Idx → EReal) (b : Fin 524288) (a : Fin 4) (ha : a.val < 128) :
    extractStridedSlice S524288x4 ![0, 0] A Facts₀.slices_S524288x128_S524288x4_0_0 (ix2 b a)
      = A (ix2 b (⟨a.val, ha⟩ : Fin 128)) := by
  refine extractStridedSlice_apply (s := S524288x128) (t := S524288x4) ![0, 0] A
    Facts₀.slices_S524288x128_S524288x4_0_0 (ix2 b a) (ix2 b (⟨a.val, ha⟩ : Fin 128)) (fun ax => ?_)
  match ax with
  | ⟨0, _⟩ => show b.val = 0 + b.val; omega
  | ⟨1, _⟩ => show a.val = 0 + a.val; omega

/-- The slice of the wide output at (b, a) is the network of row b at column a. -/
theorem slice_netArr (A0 : S524288x16.Idx → EReal) (A1 : S16x128.Idx → EReal) (A2 : S128x128.Idx → EReal)
    (b : Fin 524288) (a : Fin 4) :
    extractStridedSlice S524288x4 ![0, 0] (netArr A0 A1 A2) Facts₀.slices_S524288x128_S524288x4_0_0 (ix2 b a)
      = net A0 A1 A2 b ⟨a.val, by omega⟩ :=
  slice_read (netArr A0 A1 A2) b a (by omega)

variable (m : (ℓ : Loc nD τ sig) → Buf (Elt Ideal) ℓ) (ρ : Dev nD → PrngReg)

/-- What the host operation after the region leaves in the result: the slice of the wide output. -/
theorem tail_eq (c : Dev nD) :
    (Pipeline.afterTail₀ cfgs (dats m) 0 (V0 m) [hostOps1] c main_v7 : S524288x4.Idx → EReal)
      = extractStridedSlice S524288x4 ![0, 0] (netArr (V m c main_v5) (V m c main_arg1) (V m c main_arg2))
          Facts₀.slices_S524288x128_S524288x4_0_0 := by
  unfold Pipeline.afterTail₀
  show StableHlo.after hostOps1 _ (Proc.devRef .tc main_v7) = _
  after_results
  rw [Pipeline.withArrays_arr spec0 launch0.win.arr_inj c _ _ 3]
  exact congrArg (fun A : S524288x128.Idx → EReal =>
    extractStridedSlice S524288x4 ![0, 0] A Facts₀.slices_S524288x128_S524288x4_0_0) (final m c)

/-- THE RESULT: entry (b, a) is the network of input row b at output column a. -/
theorem result_eq (c : Dev nD) :
    (Pipeline.afterTail₀ cfgs (dats m) 0 (V0 m) [hostOps1] c main_v7 : S524288x4.Idx → EReal)
      = fun i => QSpec.rowQ (m ((c.tc : Thread nD τ).loc main_arg0)) (m ((c.tc : Thread nD τ).loc main_arg1))
          (m ((c.tc : Thread nD τ).loc main_arg2)) (i 0) (i 1) := by
  refine (tail_eq m c).trans ?_
  funext i
  obtain ⟨b, a, rfl⟩ : ∃ (b : Fin 524288) (a : Fin 4), i = ix2 b a := ⟨i 0, i 1, eq_ix2 i⟩
  refine (slice_netArr (V m c main_v5) (V m c main_arg1) (V m c main_arg2) b a).trans ?_
  · refine (net_eq_rowQ (m ((c.tc : Thread nD τ).loc main_arg0)) (V m c main_v5) (V m c main_arg1) (V m c main_arg2) b a
      (xaug_read m c b)).trans ?_
    exact congrArg₂ (fun w1 w2 => QSpec.rowQ (m ((c.tc : Thread nD τ).loc main_arg0)) w1 w2 b a)
      (V_main_arg1 m c) (V_main_arg2 m c)

/-- THE RUN: the program terminates with the result at `QSpec.rowQ` of the three arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (fun i => QSpec.rowQ (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.RowValue

end
-- ==== Proof.QAlgebra.lean ====
/-
  The batch-major and the lane-major formula of the two-layer network agree whenever the first-layer matrix has
  the padded layout: columns 100..126 zero, column 127 zero except for a one in row 12.

  Everything here is algebra in the extended reals using only that they are a commutative monoid with zero
  under multiplication and a commutative monoid under addition; no distributivity and no finiteness is used.
-/
import proofs.«166155_g2000002516493278_pallasbulk_279_28_alg».proof.Proof.QSpec

noncomputable section

open scoped BigOperators

namespace QSpec

open Idealize.ShloMosaic Idealize.ShloMosaic.ValueIdx

/-- The single-precision word of 1.0 denotes the extended real one. -/
theorem one_eq : one = (1 : EReal) := by
  show Ideal.ofBits .f32 0x3F800000#32 = 1
  simp [Ideal.ofBits, Ideal.ieee, -EReal.coe_mul]; norm_num

/-- A sum over `m + n` indices is the sum over the first `m` plus the sum over the last `n`. -/
theorem sum_split {M : Type*} [AddCommMonoid M] (m n : ℕ) (f : Fin (m + n) → M) :
    ∑ i, f i = ∑ i : Fin m, f (Fin.castAdd n i) + ∑ i : Fin n, f (Fin.natAdd m i) :=
  Fin.sum_univ_add f

section
variable (x : SX.Idx → EReal) (w1 : SW1.Idx → EReal) (w2 : SW2.Idx → EReal) (b : Fin 524288)

/-- The augmented row against column `j` of the first-layer matrix: the twelve features, then the bias row;
    the three trailing zeros of the augmented row contribute nothing. -/
theorem xaug_sum (j : Fin 128) :
    ∑ k : Fin 16, xaug x b k * w1 (ix2 k j)
      = (∑ k : Fin 12, x (ix2 b k) * w1 (ix2 (⟨k.val, by omega⟩ : Fin 16) j)) + one * w1 (ix2 (12 : Fin 16) j) := by
  refine (sum_split 12 4 (fun k => xaug x b k * w1 (ix2 k j))).trans ?_
  rw [Fin.sum_univ_four]
  have h0 : ∀ k : Fin 12, xaug x b (Fin.castAdd 4 k) = x (ix2 b k) := by
    intro k
    have hk := k.isLt
    unfold xaug
    rw [if_neg (by simp only [Fin.coe_castAdd]; omega), dif_pos (by simp only [Fin.coe_castAdd]; omega)]
    rfl
  have h12 : xaug x b (Fin.natAdd 12 (0 : Fin 4)) = one := if_pos rfl
  have h13 : xaug x b (Fin.natAdd 12 (1 : Fin 4)) = 0 := by
    unfold xaug; rw [if_neg (by decide), dif_neg (by decide)]
  have h14 : xaug x b (Fin.natAdd 12 (2 : Fin 4)) = 0 := by
    unfold xaug; rw [if_neg (by decide), dif_neg (by decide)]
  have h15 : xaug x b (Fin.natAdd 12 (3 : Fin 4)) = 0 := by
    unfold xaug; rw [if_neg (by decide), dif_neg (by decide)]
  simp only [h0, h12, h13, h14, h15, zero_mul, add_zero]
  rfl

/-- Summand `j` of the batch-major formula. -/
def rowTerm (a : Fin 4) (j : Fin 128) : EReal :=
  max (∑ k : Fin 16, xaug x b k * w1 (ix2 k j)) 0 * w2 (ix2 j ⟨a.val, by omega⟩)

/-- Summand `j` of the lane-major formula. -/
def laneTerm (a : Fin 4) (j : Fin 104) : EReal :=
  w2t w2 ⟨a.val, by omega⟩ j * laneHidden x w1 b j

theorem rowQ_eq_sum (a : Fin 4) : rowQ x w1 w2 b a = ∑ j, rowTerm x w1 w2 b a j := rfl

theorem laneQ_eq_sum (a : Fin 4) : laneQ x w1 w2 b a = ∑ j, laneTerm x w1 w2 b a j := rfl

/-- What both formulas contribute at a hidden unit `j < 100`. -/
def lowTerm (a : Fin 4) (j : Fin 100) : EReal :=
  max ((∑ k : Fin 12, x (ix2 b k) * w1 (ix2 (⟨k.val, by omega⟩ : Fin 16) (⟨j.val, by omega⟩ : Fin 128)))
        + w1 (ix2 (12 : Fin 16) (⟨j.val, by omega⟩ : Fin 128))) 0
    * w2 (ix2 (⟨j.val, by omega⟩ : Fin 128) (⟨a.val, by omega⟩ : Fin 128))

/-- Below column 100 the batch-major summand is the common term: the augmented one multiplies the bias row. -/
theorem rowTerm_low (a : Fin 4) (j : Fin 128) (hj : j.val < 100) :
    rowTerm x w1 w2 b a j = lowTerm x w1 w2 b a ⟨j.val, hj⟩ := by
  unfold rowTerm lowTerm
  rw [xaug_sum, one_eq, one_mul]

/-- In the zero columns 100..126 the batch-major summand vanishes. -/
theorem rowTerm_pad (hpad : ∀ (k : Fin 16) (j : Fin 128), 100 ≤ j.val → j.val < 127 → w1 (ix2 k j) = 0)
    (a : Fin 4) (j : Fin 128) (h1 : 100 ≤ j.val) (h2 : j.val < 127) : rowTerm x w1 w2 b a j = 0 := by
  unfold rowTerm
  have h : ∑ k : Fin 16, xaug x b k * w1 (ix2 k j) = 0 :=
    Finset.sum_eq_zero (fun k _ => by rw [hpad k j h1 h2, mul_zero])
  rw [h, max_self, zero_mul]

/-- In column 127 the hidden unit is the constant one, so the batch-major summand is the last second-layer row. -/
theorem rowTerm_last (hcol0 : ∀ k : Fin 16, k.val ≠ 12 → w1 (ix2 k (127 : Fin 128)) = 0)
    (hcol1 : w1 (ix2 (12 : Fin 16) (127 : Fin 128)) = one) (a : Fin 4) :
    rowTerm x w1 w2 b a (127 : Fin 128) = w2 (ix2 (127 : Fin 128) (⟨a.val, by omega⟩ : Fin 128)) := by
  unfold rowTerm
  rw [xaug_sum]
  have h : ∑ k : Fin 12, x (ix2 b k) * w1 (ix2 (⟨k.val, by omega⟩ : Fin 16) (127 : Fin 128)) = 0 :=
    Finset.sum_eq_zero (fun k _ => by
      rw [hcol0 ⟨k.val, by omega⟩ (by have := k.isLt; show k.val ≠ 12; omega), mul_zero])
  rw [h, hcol1, zero_add, one_eq, one_mul, max_eq_left zero_le_one, one_mul]

/-- Below row 100 the lane-major summand is the common term, by commutativity of the products. -/
theorem laneTerm_low (a : Fin 4) (j : Fin 104) (hj : j.val < 100) :
    laneTerm x w1 w2 b a j = lowTerm x w1 w2 b a ⟨j.val, hj⟩ := by
  have ha := a.isLt
  unfold laneTerm lowTerm laneHidden biasCol w2t
  rw [if_neg (by show ¬ (a.val < 4 ∧ j.val = 100); omega), dif_pos (show a.val < 4 ∧ j.val < 100 from ⟨ha, hj⟩),
    if_neg (by omega), mul_comm]
  congr 3
  exact Finset.sum_congr rfl (fun k _ => mul_comm _ _)

/-- Row 100 of the lane-major program: the first-layer entries there are zero and the bias is one, so the hidden
    value is one and the summand is the last second-layer row. -/
theorem laneTerm_100 (hpad : ∀ (k : Fin 16) (j : Fin 128), 100 ≤ j.val → j.val < 127 → w1 (ix2 k j) = 0)
    (a : Fin 4) (j : Fin 104) (hj : j.val = 100) :
    laneTerm x w1 w2 b a j = w2 (ix2 (127 : Fin 128) (⟨a.val, by omega⟩ : Fin 128)) := by
  have ha := a.isLt
  unfold laneTerm laneHidden biasCol w2t
  have h : ∑ k : Fin 12, w1 (ix2 (⟨k.val, by omega⟩ : Fin 16) (⟨j.val, by omega⟩ : Fin 128)) * x (ix2 b k) = 0 :=
    Finset.sum_eq_zero (fun k _ => by
      rw [hpad _ _ (by show 100 ≤ j.val; omega) (by show j.val < 127; omega), zero_mul])
  rw [if_pos (show a.val < 4 ∧ j.val = 100 from ⟨ha, hj⟩), if_pos hj, h, zero_add, one_eq,
    max_eq_left zero_le_one, mul_one]

/-- Rows 101..103 of the lane-major program meet a zero of the small second-layer matrix. -/
theorem laneTerm_tail (a : Fin 4) (j : Fin 104) (hj : 100 < j.val) : laneTerm x w1 w2 b a j = 0 := by
  unfold laneTerm w2t
  rw [if_neg (by show ¬ (a.val < 4 ∧ j.val = 100); omega), dif_neg (by show ¬ (a.val < 4 ∧ j.val < 100); omega),
    zero_mul]

/-- The batch-major formula: the common terms, then the last second-layer row. -/
theorem rowQ_eq (hpad : ∀ (k : Fin 16) (j : Fin 128), 100 ≤ j.val → j.val < 127 → w1 (ix2 k j) = 0)
    (hcol0 : ∀ k : Fin 16, k.val ≠ 12 → w1 (ix2 k (127 : Fin 128)) = 0)
    (hcol1 : w1 (ix2 (12 : Fin 16) (127 : Fin 128)) = one) (a : Fin 4) :
    rowQ x w1 w2 b a
      = (∑ j : Fin 100, lowTerm x w1 w2 b a j) + w2 (ix2 (127 : Fin 128) (⟨a.val, by omega⟩ : Fin 128)) := by
  rw [rowQ_eq_sum]
  refine (sum_split 100 28 (rowTerm x w1 w2 b a)).trans ?_
  congr 1
  · exact Finset.sum_congr rfl (fun j _ => rowTerm_low x w1 w2 b a _ (by simp only [Fin.coe_castAdd]; exact j.isLt))
  · refine (Fin.sum_univ_castSucc (n := 27) (fun j => rowTerm x w1 w2 b a (Fin.natAdd 100 j))).trans ?_
    have h : ∑ j : Fin 27, rowTerm x w1 w2 b a (Fin.natAdd 100 (Fin.castSucc j)) = 0 :=
      Finset.sum_eq_zero (fun j _ => rowTerm_pad x w1 w2 b hpad a _
        (by simp only [Fin.coe_natAdd, Fin.coe_castSucc]; omega)
        (by have := j.isLt; simp only [Fin.coe_natAdd, Fin.coe_castSucc]; omega))
    rw [h, zero_add]
    exact rowTerm_last x w1 w2 b hcol0 hcol1 a

/-- The lane-major formula: the common terms, then the last second-layer row. -/
theorem laneQ_eq (hpad : ∀ (k : Fin 16) (j : Fin 128), 100 ≤ j.val → j.val < 127 → w1 (ix2 k j) = 0) (a : Fin 4) :
    laneQ x w1 w2 b a
      = (∑ j : Fin 100, lowTerm x w1 w2 b a j) + w2 (ix2 (127 : Fin 128) (⟨a.val, by omega⟩ : Fin 128)) := by
  rw [laneQ_eq_sum]
  refine (sum_split 100 4 (laneTerm x w1 w2 b a)).trans ?_
  congr 1
  · exact Finset.sum_congr rfl (fun j _ => laneTerm_low x w1 w2 b a _ (by simp only [Fin.coe_castAdd]; exact j.isLt))
  · rw [Fin.sum_univ_four, laneTerm_100 x w1 w2 b hpad a _ rfl, laneTerm_tail x w1 w2 b a _ (by decide),
      laneTerm_tail x w1 w2 b a _ (by decide), laneTerm_tail x w1 w2 b a _ (by decide), add_zero, add_zero, add_zero]

end

/-- Under the padded layout of the first-layer matrix the lane-major and the batch-major formula agree. -/
theorem laneQ_eq_rowQ (x : SX.Idx → EReal) (w1 : SW1.Idx → EReal) (w2 : SW2.Idx → EReal)
    (hpad : ∀ (k : Fin 16) (j : Fin 128), 100 ≤ j.val → j.val < 127 → w1 (ix2 k j) = 0)
    (hcol0 : ∀ k : Fin 16, k.val ≠ 12 → w1 (ix2 k (127 : Fin 128)) = 0)
    (hcol1 : w1 (ix2 (12 : Fin 16) (127 : Fin 128)) = one)
    (b : Fin 524288) (a : Fin 4) : laneQ x w1 w2 b a = rowQ x w1 w2 b a := by
  rw [laneQ_eq x w1 w2 b hpad a, rowQ_eq x w1 w2 b hpad hcol0 hcol1 a]

end QSpec

end
-- ==== Proof.PreLayout.lean ====
/-
  What the precondition says about the layout of the first-layer matrix.

  Beyond finiteness of the three arguments the precondition is a conjunction of four "every entry of this slice
  equals this constant" tests on the 16 × 128 matrix: columns 100..126 are zero in every row; column 127 is zero
  in rows 0..11, one in row 12, zero in rows 13..15. Each test is an all-reduction of an elementwise ordered
  equality between a slice and a broadcast scalar; on the extended reals a true ordered equality is equality.
-/
import proofs.«166155_g2000002516493278_pallasbulk_279_28_alg».proof.Pre_finite_inputs
import proofs.«166155_g2000002516493278_pallasbulk_279_28_alg».proof.Proof.QSpec
import Idealize.ShloMosaic.Lib.ReduceAll
import Idealize.ShloMosaic.Lib.IdealHost
import Idealize.ShloMosaic.Lib.Pipeline.Value
import Idealize.ShloMosaic.PureOps.Ideal.Laws

noncomputable section

namespace Cert.PreLayout

open Idealize.ShloMosaic Idealize.ShloMosaic.ValueIdx
open Cert.Pre_finite_inputs

/-- The scalar shape has one index. -/
instance : Subsingleton S_.Idx := ⟨fun a b => funext fun d => d.elim0⟩

/-- A true ordered equality of two extended reals is equality. -/
theorem eq_of_oeq {x y : EReal} (h : Ideal.cmp .oeq x y = 1#1) : x = y := by
  by_contra hne
  simp [Ideal.cmp, hne] at h

/-- "All entries of the slice equal the scalar constant" read at one entry: the source entry `k` that the slice
    entry `j` comes from (`k = off + j` axis by axis) is the constant. -/
theorem slice_all_eq {s t : Shape} {axes : List (Fin t.rank)} (off : Fin s.rank → Nat) (w : FVec Ideal s .f32)
    (hs : s.Slices off t) (hb : S_.BroadcastsInDim t (![] : Fin 0 → Fin t.rank)) (c : BitVec 32)
    (hr : t.ReducesTo axes S_) (hu : 0 < S_.numel) (init : IVec S_ 1)
    (e : Host.reduce IntOp.andi
          (cmpf .oeq (extractStridedSlice t off w hs) (broadcastInDim t ![] hb (constant (F := Ideal) S_ .f32 c)))
          init hr hu ix0 = 1#1)
    (j : t.Idx) (k : s.Idx) (hk : ∀ a : Fin s.rank, (k a).val = off a + (j (a.cast hs.1.symm)).val) :
    w k = Ideal.ofBits .f32 c := by
  have h1 := Host.reduce_andi_all _ init hr hu ix0 e j
  have h2 : extractStridedSlice t off w hs j = broadcastInDim t ![] hb (constant (F := Ideal) S_ .f32 c) j :=
    eq_of_oeq h1
  rw [extractStridedSlice_apply off w hs j k hk, broadcastInDim_scalar_apply, constant_apply] at h2
  exact h2

/-- The same for a slice `[o0 : o0 + n0, o1 : o1 + n1]` of the 16 × 128 matrix, by coordinates. -/
theorem matrix_slice_eq {n0 n1 : Nat} {axes : List (Fin (⟨2, ![n0, n1]⟩ : Shape).rank)} (o0 o1 : Nat)
    (w : FVec Ideal S16x128 .f32) (hs : S16x128.Slices ![o0, o1] ⟨2, ![n0, n1]⟩)
    (hb : S_.BroadcastsInDim ⟨2, ![n0, n1]⟩ (![] : Fin 0 → Fin (⟨2, ![n0, n1]⟩ : Shape).rank)) (c : BitVec 32)
    (hr : (⟨2, ![n0, n1]⟩ : Shape).ReducesTo axes S_) (hu : 0 < S_.numel) (init : IVec S_ 1)
    (e : Host.reduce IntOp.andi
          (cmpf .oeq (extractStridedSlice ⟨2, ![n0, n1]⟩ ![o0, o1] w hs)
            (broadcastInDim ⟨2, ![n0, n1]⟩ ![] hb (constant (F := Ideal) S_ .f32 c)))
          init hr hu ix0 = 1#1)
    (k : Fin 16) (j : Fin 128) (hk : o0 ≤ k.val) (hk' : k.val < o0 + n0) (hj : o1 ≤ j.val) (hj' : j.val < o1 + n1) :
    w (ix2 k j) = Ideal.ofBits .f32 c :=
  slice_all_eq ![o0, o1] w hs hb c hr hu init e
    (ix2 (⟨k.val - o0, by omega⟩ : Fin n0) (⟨j.val - o1, by omega⟩ : Fin n1)) (ix2 k j)
    (fun a => match a with
      | ⟨0, _⟩ => by show k.val = o0 + (k.val - o0); omega
      | ⟨1, _⟩ => by show j.val = o1 + (j.val - o1); omega)

/-- The layout of the first-layer matrix that the precondition states. -/
theorem layout_of_pre [Facts] (x : FVec Ideal S524288x12 .f32) (w1 : FVec Ideal S16x128 .f32)
    (w2 : FVec Ideal S128x128 .f32) (h : fn (F := Ideal) x w1 w2 = fun _ => 1#1) :
    (∀ (k : Fin 16) (j : Fin 128), 100 ≤ j.val → j.val < 127 → w1 (ix2 k j) = 0)
    ∧ (∀ k : Fin 16, k.val ≠ 12 → w1 (ix2 k (127 : Fin 128)) = 0)
    ∧ w1 (ix2 (12 : Fin 16) (127 : Fin 128)) = QSpec.one := by
  have h0 := congrFun h ix0
  dsimp only [fn, fn_part1] at h0
  obtain ⟨h1, e32⟩ := IntOp.andi_eq_one.1 h0
  obtain ⟨h2, e27⟩ := IntOp.andi_eq_one.1 h1
  obtain ⟨h3, e22⟩ := IntOp.andi_eq_one.1 h2
  obtain ⟨_, e17⟩ := IntOp.andi_eq_one.1 h3
  have h127 : (127 : Fin 128).val = 127 := rfl
  refine ⟨fun k j hj1 hj2 => ?_, fun k hk => ?_, ?_⟩
  · have hkk := k.isLt
    rw [matrix_slice_eq 0 100 w1 _ _ _ _ _ _ e17 k j (by omega) (by omega) hj1 (by omega), Ideal.ofBits_zero_f32]
  · have hkk := k.isLt
    by_cases hlt : k.val < 12
    · rw [matrix_slice_eq 0 127 w1 _ _ _ _ _ _ e22 k (127 : Fin 128) (by omega) (by omega) (by omega) (by omega),
        Ideal.ofBits_zero_f32]
    · rw [matrix_slice_eq 13 127 w1 _ _ _ _ _ _ e32 k (127 : Fin 128) (by omega) (by omega) (by omega) (by omega),
        Ideal.ofBits_zero_f32]
  · have h12 : (12 : Fin 16).val = 12 := rfl
    exact matrix_slice_eq 12 127 w1 _ _ _ _ _ _ e27 (12 : Fin 16) (127 : Fin 128) (by omega) (by omega) (by omega) (by omega)

end Cert.PreLayout

end
-- ==== Proof.lean ====
/-
  Two Pallas programs for the same two-layer network `relu(x·W1 + b1)·W2 + b2` over a batch of 524288 rows of twelve
  features, the biases folded into augmented weight matrices `w1_aug : [16, 128]` and `w2_aug : [128, 128]`.

  The batch-major program augments each row to `[x, 1, 0, 0, 0]`, multiplies by `w1_aug`, clamps at zero and multiplies
  by `w2_aug`, 256 rows per grid point, and keeps the first four columns (`QSpec.rowQ`). The lane-major program
  works on the transposed problem, 32768 batch positions per grid point, with only 104 hidden rows: rows 0..99 are
  the network's hidden units, row 100 is made constantly one (its bias entry is overwritten by one) and carries the
  output bias `w2_aug[127, :]`, and the hidden lanes 101..127 are dropped (`QSpec.laneQ`).

  The two agree on the documented layout of `w1_aug`: hidden lanes 100..126 are zero padding and column 127 is the
  unit vector `e_12` (which makes the batch-major hidden lane 127 constantly one). Under that layout both results
  are `(∑ j < 100, max (∑ k < 12, x[b,k]·w1[k,j] + w1[12,j]) 0 · w2[j,a]) + w2[127,a]`: on the extended reals the
  padded lanes contribute `0 · w2 = 0`, the ones lane contributes `1 · w2[127,a]`, and the rest is commutativity of
  the products — no finiteness of the inputs is used. All format changes are the identity at the ideal instance.

  The three frames are the generated ones; the ideal pass rewrote nothing, so the idealization claim is trivial.
-/
import proofs.«166155_g2000002516493278_pallasbulk_279_28_alg».proof.Defs
import proofs.«166155_g2000002516493278_pallasbulk_279_28_alg».proof.Proof.Gen.Kernel
import proofs.«166155_g2000002516493278_pallasbulk_279_28_alg».proof.Proof.Gen.Kernel.Skeleton
import proofs.«166155_g2000002516493278_pallasbulk_279_28_alg».proof.Proof.Gen.Kernel.Launch
import proofs.«166155_g2000002516493278_pallasbulk_279_28_alg».proof.Proof.Gen.Kernel.Points
import proofs.«166155_g2000002516493278_pallasbulk_279_28_alg».proof.Proof.Gen.Kernel.Frame
import proofs.«166155_g2000002516493278_pallasbulk_279_28_alg».proof.Proof.Gen.KernelIdeal
import proofs.«166155_g2000002516493278_pallasbulk_279_28_alg».proof.Proof.Gen.KernelIdeal.Skeleton
import proofs.«166155_g2000002516493278_pallasbulk_279_28_alg».proof.Proof.Gen.KernelIdeal.Launch
import proofs.«166155_g2000002516493278_pallasbulk_279_28_alg».proof.Proof.Gen.KernelIdeal.Points
import proofs.«166155_g2000002516493278_pallasbulk_279_28_alg».proof.Proof.Gen.KernelIdeal.Frame
import proofs.«166155_g2000002516493278_pallasbulk_279_28_alg».proof.Proof.Gen.ReferenceIdeal
import proofs.«166155_g2000002516493278_pallasbulk_279_28_alg».proof.Proof.Gen.ReferenceIdeal.Skeleton
import proofs.«166155_g2000002516493278_pallasbulk_279_28_alg».proof.Proof.Gen.ReferenceIdeal.Launch
import proofs.«166155_g2000002516493278_pallasbulk_279_28_alg».proof.Proof.Gen.ReferenceIdeal.Points
import proofs.«166155_g2000002516493278_pallasbulk_279_28_alg».proof.Proof.Gen.ReferenceIdeal.Frame
import proofs.«166155_g2000002516493278_pallasbulk_279_28_alg».proof.Proof.Gen.Pre_finite_inputs
import proofs.«166155_g2000002516493278_pallasbulk_279_28_alg».proof.Proof.KerRun
import proofs.«166155_g2000002516493278_pallasbulk_279_28_alg».proof.Proof.RefRun
import proofs.«166155_g2000002516493278_pallasbulk_279_28_alg».proof.Proof.QAlgebra
import proofs.«166155_g2000002516493278_pallasbulk_279_28_alg».proof.Proof.PreLayout
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Under the precondition the lane-major result `laneQ` of the arguments is the batch-major `rowQ` of them (the
    layout of `w1_aug` read off the precondition), and the batch-major program, run from arguments that agree, ends at
    the same `rowQ`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i => QSpec.rowQ
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1)), ?_, ?_⟩
  · refine (θ_run Cert.KernelIdeal.defs _ _).mono (fun _ h c => ⟨(h c).1.trans ?_, (h c).2⟩)
      (Cert.KernelIdeal.LaneRun.run m ρ)
    obtain ⟨hpad, hcol0, hcol1⟩ := Cert.PreLayout.layout_of_pre _ _ _ (hpre c)
    exact funext fun i => QSpec.laneQ_eq_rowQ _ _ _ hpad hcol0 hcol1 (i 0) (i 1)
  · refine (θ_run Cert.ReferenceIdeal.defs _ _).mono (fun _ h c => ⟨(h c).1.trans ?_, (h c).2⟩)
      (Cert.ReferenceIdeal.RowValue.run m' ρ')
    rw [(hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
